-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S200000x2 : Shape := ⟨2, ![200000, 2]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128x1 .f32) (main_arg10 : FVec F S1 .f32) (main_v33 : IVec S_ 1) : IVec S_ 1 :=
  let main_v34 : FVec F S128x1 .f32 := Host.absf main_arg9
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128 .f32) (main_arg7 : FVec F S256x128 .f32) (main_arg8 : FVec F S128 .f32) (main_arg9 : FVec F S128x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x1600000 32) (main_arg2 : IVec S200000x2 32) (main_arg3 : FVec F S128x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x1600000 : Shape := ⟨2, ![2, 1600000]⟩
abbrev S200000x2 : Shape := ⟨2, ![200000, 2]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩
abbrev S1650000x128 : Shape := ⟨2, ![1650000, 128]⟩
abbrev S200000x1 : Shape := ⟨2, ![200000, 1]⟩
abbrev S200000 : Shape := ⟨1, ![200000]⟩
abbrev S200000x128 : Shape := ⟨2, ![200000, 128]⟩
abbrev S1x1 : Shape := ⟨2, ![1, 1]⟩
abbrev S8000x128 : Shape := ⟨2, ![8000, 128]⟩
abbrev S8000x1 : Shape := ⟨2, ![8000, 1]⟩
abbrev S8000x256 : Shape := ⟨2, ![8000, 256]⟩

abbrev nBuf : Space → Nat
  | .hbm => 91
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S200000x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S50000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S1x1600000, .i32⟩
  | .hbm, ⟨16, _⟩ => ⟨S1600000, .i32⟩
  | .hbm, ⟨17, _⟩ => ⟨S1650000, .i32⟩
  | .hbm, ⟨18, _⟩ => ⟨S_, .f32⟩
  | .hbm, ⟨19, _⟩ => ⟨S1650000, .f32⟩
  | .hbm, ⟨20, _⟩ => ⟨S_, .f32⟩
  | .hbm, ⟨21, _⟩ => ⟨S50000, .f32⟩
  | .hbm, ⟨22, _⟩ => ⟨S1650000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000x128, .f32⟩
  | .hbm, ⟨45, _⟩ => ⟨S_, .f32⟩
  | .hbm, ⟨46, _⟩ => ⟨S50000x128, .f32⟩
  | .hbm, ⟨47, _⟩ => ⟨S1650000x1, .i32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S50000x128, .f32⟩
  | .hbm, ⟨65, _⟩ => ⟨S50000x128, .bf16⟩
  | .hbm, ⟨66, _⟩ => ⟨S200000x1, .i32⟩
  | .hbm, ⟨67, _⟩ => ⟨S200000, .i32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S200000x128, .bf16⟩
  | .hbm, ⟨77, _⟩ => ⟨S200000x1, .i32⟩
  | .hbm, ⟨78, _⟩ => ⟨S200000, .i32⟩
  | .hbm, ⟨79, _⟩ => ⟨S_, .i32⟩
  | .hbm, ⟨80, _⟩ => ⟨S200000, .i32⟩
  | .hbm, ⟨81, _⟩ => ⟨S200000, .i1⟩
  | .hbm, ⟨82, _⟩ => ⟨S_, .i32⟩
  | .hbm, ⟨83, _⟩ => ⟨S200000, .i32⟩
  | .hbm, ⟨84, _⟩ => ⟨S200000, .i32⟩
  | .hbm, ⟨85, _⟩ => ⟨S200000, .i32⟩
  | .hbm, ⟨86, _⟩ => ⟨S200000x1, .i32⟩
  | .hbm, ⟨87, _⟩ => ⟨S200000x128, .bf16⟩
  | .hbm, ⟨88, _⟩ => ⟨S1x128, .f32⟩
  | .hbm, ⟨89, _⟩ => ⟨S1x1, .f32⟩
  | .hbm, ⟨90, _⟩ => ⟨S200000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S8000x128, .bf16⟩
  | .local _ .vmem, ⟨29, _⟩ => ⟨S8000x128, .bf16⟩
  | .local _ .vmem, ⟨30, _⟩ => ⟨S8000x128, .bf16⟩
  | .local _ .vmem, ⟨31, _⟩ => ⟨S8000x128, .bf16⟩
  | .local _ .vmem, ⟨32, _⟩ => ⟨S256x128, .f32⟩
  | .local _ .vmem, ⟨33, _⟩ => ⟨S1x128, .f32⟩
  | .local _ .vmem, ⟨34, _⟩ => ⟨S128x1, .f32⟩
  | .local _ .vmem, ⟨35, _⟩ => ⟨S1x1, .f32⟩
  | .local _ .vmem, ⟨36, _⟩ => ⟨S8000x1, .f32⟩
  | .local _ .vmem, ⟨37, _⟩ => ⟨S8000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  concatenates_S8000x128_S8000x128_S8000x256_d1 : Shape.Concatenates [S8000x128, S8000x128] S8000x256 1
  inb_S256x128_S256x128_0_0 : ∀ a, (![0, 0] : Fin 2 → Nat) a + S256x128.size a ≤ S256x128.size a
  h_S256x128 : 0 < S256x128.numel
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  scatter_S50000_S1650000x1_S1650000_n_0_0_1_wf : ScatterDims.WF S50000 S1650000x1 S1650000 [] [0] [0] 1
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S50000x128_S200000x1_S200000x128_1_0_n_n_0_1_1128_wf : GatherDims.WF S50000x128 S200000x1 S200000x128 [1] [0] [] [0] [] 1 ![1, 128]
  dot_S8000x256_S256x128_S8000x128_1_0_0_1_n_n_wf : DotDims.WF S8000x256 S256x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S200000x128.size a
  hwx4_0 : ∀ i : grid4.Coords, EltTy.bits .bf16 = 32 ∨ (Rect.block (s := S200000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S200000x128.size a
  hwx4_1 : ∀ i : grid4.Coords, EltTy.bits .bf16 = 32 ∨ (Rect.block (s := S200000x128) S8000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x1.size a ≤ S128x1.size a
  hwx4_4 : ∀ i : grid4.Coords, EltTy.bits .f32 = 32 ∨ (Rect.block (s := S128x1) S128x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S8000x1.size a ≤ S200000x1.size a
  hwx4_6 : ∀ i : grid4.Coords, EltTy.bits .f32 = 32 ∨ (Rect.block (s := S200000x1) S8000x1.size (cc4_transform_6 i) (hinb4_6 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S128x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v62) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v63) S8000x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S200000x2 : Shape := ⟨2, ![200000, 2]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S200000x1 : Shape := ⟨2, ![200000, 1]⟩
abbrev S200000 : Shape := ⟨1, ![200000]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x1600000, .i32⟩
  | 2 => ⟨S200000x2, .i32⟩
  | 3 => ⟨S128x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x1, .f32⟩
  | 10 => ⟨S1, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S50000x128, .f32⟩
  | 19 => ⟨S_, .f32⟩
  | 20 => ⟨S1650000, .f32⟩
  | 21 => ⟨S_, .f32⟩
  | 22 => ⟨S50000, .f32⟩
  | 23 => ⟨S1650000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000, .f32⟩
  | 42 => ⟨S_, .i32⟩
  | 43 => ⟨S1650000, .i32⟩
  | 44 => ⟨S1650000, .i1⟩
  | 45 => ⟨S_, .i32⟩
  | 46 => ⟨S1650000, .i32⟩
  | 47 => ⟨S1650000, .i32⟩
  | 48 => ⟨S1650000, .i32⟩
  | 49 => ⟨S1650000x1, .i32⟩
  | 50 => ⟨S1650000, .f32⟩
  | 51 => ⟨S1650000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x128, .f32⟩
  | 61 => ⟨S1650000x1, .f32⟩
  | 62 => ⟨S1650000x128, .f32⟩
  | 63 => ⟨S1650000x128, .f32⟩
  | 64 => ⟨S_, .f32⟩
  | 65 => ⟨S50000x128, .f32⟩
  | 66 => ⟨S1650000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .f32⟩
  | 76 => ⟨S1650000, .f32⟩
  | 77 => ⟨S_, .f32⟩
  | 78 => ⟨S50000, .f32⟩
  | 79 => ⟨S1650000x1, .i32⟩
  | 80 => ⟨S50000, .f32⟩
  | 81 => ⟨S_, .f32⟩
  | 82 => ⟨S50000, .f32⟩
  | 83 => ⟨S50000, .i1⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S1650000, .i32⟩
  | 91 => ⟨S1650000, .i1⟩
  | 92 => ⟨S_, .i32⟩
  | 93 => ⟨S1650000, .i32⟩
  | 94 => ⟨S1650000, .i32⟩
  | 95 => ⟨S1650000, .i32⟩
  | 96 => ⟨S1650000x1, .i32⟩
  | 97 => ⟨S1650000, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000, .f32⟩
  | 107 => ⟨S1650000, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000x128, .f32⟩
  | 117 => ⟨S1650000x1, .f32⟩
  | 118 => ⟨S1650000x128, .f32⟩
  | 119 => ⟨S1650000x128, .f32⟩
  | 120 => ⟨S_, .f32⟩
  | 121 => ⟨S50000x128, .f32⟩
  | 122 => ⟨S1650000x1, .i32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S200000x1, .i32⟩
  | 3 => ⟨S200000, .i32⟩
  | 4 => ⟨S_, .i32⟩
  | 5 => ⟨S200000, .i32⟩
  | 6 => ⟨S200000, .i1⟩
  | 7 => ⟨S_, .i32⟩
  | 8 => ⟨S200000, .i32⟩
  | 9 => ⟨S200000, .i32⟩
  | 10 => ⟨S200000, .i32⟩
  | 11 => ⟨S200000x1, .i32⟩
  | 12 => ⟨S200000x128, .f32⟩
  | 13 => ⟨S200000x1, .i32⟩
  | 14 => ⟨S200000, .i32⟩
  | 15 => ⟨S_, .i32⟩
  | 16 => ⟨S200000, .i32⟩
  | 17 => ⟨S200000, .i1⟩
  | 18 => ⟨S_, .i32⟩
  | 19 => ⟨S200000, .i32⟩
  | 20 => ⟨S200000, .i32⟩
  | 21 => ⟨S200000, .i32⟩
  | 22 => ⟨S200000x1, .i32⟩
  | 23 => ⟨S200000x128, .f32⟩
  | 24 => ⟨S200000x256, .f32⟩
  | 25 => ⟨S200000x128, .f32⟩
  | 26 => ⟨S1x128, .f32⟩
  | 27 => ⟨S200000x128, .f32⟩
  | 28 => ⟨S200000x128, .f32⟩
  | 29 => ⟨S_, .f32⟩
  | 30 => ⟨S200000x128, .f32⟩
  | 31 => ⟨S200000x128, .f32⟩
  | 32 => ⟨S200000x1, .f32⟩
  | 33 => ⟨S1x1, .f32⟩
  | 34 => ⟨S200000x1, .f32⟩
  | 35 => ⟨S200000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_c_14 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_17 : Ref sig .tc := ⟨.hbm, 108, rfl⟩
abbrev main_v72 : Ref sig .tc := ⟨.hbm, 109, rfl⟩
abbrev main_v73 : Ref sig .tc := ⟨.hbm, 110, rfl⟩
abbrev main_c_18 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_call3_cst : Ref sig .tc := ⟨.hbm, 127, rfl⟩
abbrev main_call3_v0 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_c_20 : Ref sig .tc := ⟨.hbm, 132, rfl⟩
abbrev main_v91 : Ref sig .tc := ⟨.hbm, 133, rfl⟩
abbrev main_v92 : Ref sig .tc := ⟨.hbm, 134, rfl⟩
abbrev main_c_21 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_22 : Ref sig .tc := ⟨.hbm, 143, rfl⟩
abbrev main_v100 : Ref sig .tc := ⟨.hbm, 144, rfl⟩
abbrev main_v101 : Ref sig .tc := ⟨.hbm, 145, rfl⟩
abbrev main_c_23 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call4_cst : Ref sig .tc := ⟨.hbm, 157, rfl⟩
abbrev main_call4_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  concatenates_S200000x128_S200000x128_S200000x256_d1 : Shape.Concatenates [S200000x128, S200000x128] S200000x256 1
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  gather_S50000x128_S200000x1_S200000x128_1_0_n_n_0_1_1128_wf : GatherDims.WF S50000x128 S200000x1 S200000x128 [1] [0] [] [0] [] 1 ![1, 128]
  dot_S200000x256_S256x128_S200000x128_1_0_0_1_n_n_wf : DotDims.WF S200000x256 S256x128 S200000x128 [1] [0] [0] [1] [] []
  dot_S200000x128_S128x1_S200000x1_1_0_0_1_n_n_wf : DotDims.WF S200000x128 S128x1 S200000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.Spec.lean ====
/-
  A two-layer graph convolution followed by a pair-scoring head, written as one function of the argument arrays,
  entry by entry, over the extended reals.

  Nodes are numbered 0 … 49999; an edge list gives for each of 1650000 positions a source and a destination as
  32-bit integers (the last 50000 positions are the self-loops).  A destination integer names a node only when,
  read as a signed number, it lies in [0, 50000): other positions contribute to no node.  A source integer is
  first wrapped (a negative number gets 50000 added) and then clamped into [0, 49999] when a row is fetched.

  deg v   = 0 + (number of positions whose destination is v)
  dinv v  = deg v ^ (-1/2) when deg v > 0, else 0            — a nonnegative real number
  One layer maps node features h to  relu( Σ_{e → v} (h W)[src e] · dinv[src e] · dinv[v]  +  b ).
  The two ways of writing a layer differ only in where the factor dinv[v] sits: once outside the sum
  ("scaled after"), or inside every summand ("scaled inside").  Multiplication by a nonnegative REAL number
  distributes over sums of extended reals, which is all the comparison needs.
-/
import Idealize.ShloMosaic.Lib.ValueIdx
import Idealize.ShloMosaic.PureOps.Ideal
import Idealize.ShloMosaic.PureOps.Ideal.Laws
import Idealize.ShloMosaic.Lib.IdealHost

set_option maxRecDepth 16384

noncomputable section

open scoped BigOperators

namespace Cert.Gcn

open Idealize.ShloMosaic Idealize.ShloMosaic.ValueIdx

/-- The 32-bit float words 0.0 and 1.0 as extended reals. -/
abbrev zeroF : EReal := Ideal.ofBits .f32 0x00000000#32
abbrev oneF : EReal := Ideal.ofBits .f32 0x3F800000#32

/-- The row a 32-bit integer names in a table of 50000 rows: read signed, clamped into [0, 49999]. -/
def rowOf (z : BitVec 32) : Fin 50000 := ⟨min z.toInt.toNat (50000 - 1), by omega⟩

/-- A negative integer gets 50000 added; any other is kept. -/
def wrap (z : BitVec 32) : BitVec 32 := Scalar.select (IntOp.cmpi .slt z 0#32) (IntOp.addi z 50000#32) z

/-- The positions of the edge list whose destination integer, read signed, is the node v. -/
def into (dst : Fin 1650000 → BitVec 32) (v : Fin 50000) : Finset (Fin 1650000) :=
  Finset.univ.filter (fun e : Fin 1650000 => (dst e).toInt = (v.val : Int))

/-- The degree of a node: 0 plus a 1 for every position arriving at it. -/
def deg (dst : Fin 1650000 → BitVec 32) (v : Fin 50000) : EReal := zeroF + ∑ _e ∈ into dst v, oneF

/-- deg^(-1/2) where the degree is positive, 0 elsewhere. -/
def dinv (dst : Fin 1650000 → BitVec 32) (v : Fin 50000) : EReal :=
  Scalar.select (Ideal.cmp .ogt (deg dst v) zeroF) (Ideal.rsqrt (deg dst v)) zeroF

/-- The dense projection (h W)[s, k]. -/
def proj (h : Fin 50000 → Fin 128 → EReal) (W : Fin 128 → Fin 128 → EReal) (s : Fin 50000) (k : Fin 128) : EReal :=
  ∑ j : Fin 128, h s j * W j k

/-- The row fetched for position e of the source list. -/
def srcRow (src : Fin 1650000 → BitVec 32) (e : Fin 1650000) : Fin 50000 := rowOf (wrap (src e))

/-- A layer with the destination's factor applied once, after the sum. -/
def layerAfter (src dst : Fin 1650000 → BitVec 32) (h : Fin 50000 → Fin 128 → EReal) (W : Fin 128 → Fin 128 → EReal)
    (b : Fin 128 → EReal) (v : Fin 50000) (k : Fin 128) : EReal :=
  max ((zeroF + ∑ e ∈ into dst v, proj h W (srcRow src e) k * dinv dst (srcRow src e)) * dinv dst v + b k) zeroF

/-- A layer with the destination's factor inside every summand, fetched through the destination integer. -/
def layerInside (src dst : Fin 1650000 → BitVec 32) (h : Fin 50000 → Fin 128 → EReal) (W : Fin 128 → Fin 128 → EReal)
    (b : Fin 128 → EReal) (v : Fin 50000) (k : Fin 128) : EReal :=
  max ((zeroF + ∑ e ∈ into dst v,
      proj h W (srcRow src e) k * (dinv dst (srcRow src e) * dinv dst (rowOf (wrap (dst e))))) + b k) zeroF

/-- The scoring head for one pair: the two fetched rows side by side against a 256-row matrix, bias, relu, a
    128-long dot product, bias. -/
def head (hL hR : Fin 128 → EReal) (W1 : Fin 256 → Fin 128 → EReal) (b1 : Fin 128 → EReal) (W2 : Fin 128 → EReal)
    (b2 : EReal) : EReal :=
  (∑ k : Fin 128, max (((∑ j : Fin 128, hL j * W1 (Fin.castAdd 128 j) k) + ∑ j : Fin 128, hR j * W1 (Fin.natAdd 128 j) k) + b1 k) zeroF
      * W2 k) + b2

/-! ## Integers that name a node -/

theorem wrap_of_nonneg (z : BitVec 32) (hz : 0 ≤ z.toInt) : wrap z = z := by
  unfold wrap IntOp.cmpi Scalar.select
  have h : z.slt 0#32 = false := by
    rw [BitVec.slt_eq_decide]
    simpa using hz
  simp [h]

theorem rowOf_of_toInt (z : BitVec 32) (v : Fin 50000) (hz : z.toInt = (v.val : Int)) : rowOf z = v := by
  apply Fin.ext
  show min z.toInt.toNat (50000 - 1) = v.val
  have := v.isLt
  rw [hz]; simp; omega

/-- A destination integer that names the node v fetches row v. -/
theorem rowOf_wrap_of_into {dst : Fin 1650000 → BitVec 32} {v : Fin 50000} {e : Fin 1650000} (he : e ∈ into dst v) :
    rowOf (wrap (dst e)) = v := by
  have hz : (dst e).toInt = (v.val : Int) := (Finset.mem_filter.mp he).2
  rw [wrap_of_nonneg _ (by rw [hz]; omega)]
  exact rowOf_of_toInt _ _ hz

/-! ## The degree factor is a nonnegative real -/

theorem zeroF_eq : zeroF = 0 := Ideal.ofBits_zero_f32

theorem oneF_eq : oneF = 1 := Ideal.ofBits_one_f32

theorem nsmul_one_ereal (n : ℕ) : n • (1 : EReal) = ((n : ℝ) : EReal) := by
  induction n with
  | zero => simp
  | succ n ih => rw [succ_nsmul, ih, Nat.cast_succ, EReal.coe_add, EReal.coe_one]

theorem deg_eq (dst : Fin 1650000 → BitVec 32) (v : Fin 50000) : deg dst v = (((into dst v).card : ℝ) : EReal) := by
  unfold deg
  rw [zeroF_eq, oneF_eq, zero_add, Finset.sum_const, nsmul_one_ereal]

theorem dinv_real (dst : Fin 1650000 → BitVec 32) (v : Fin 50000) : ∃ r : ℝ, 0 ≤ r ∧ dinv dst v = (r : EReal) := by
  unfold dinv
  rw [deg_eq, zeroF_eq]
  by_cases hpos : (0 : ℝ) < ((into dst v).card : ℝ)
  · refine ⟨(Real.sqrt ((into dst v).card : ℝ))⁻¹, inv_nonneg.mpr (Real.sqrt_nonneg _), ?_⟩
    have hc : Ideal.cmp .ogt ((((into dst v).card : ℝ) : EReal)) 0 = 1#1 := by
      show BitVec.ofBool (decide ((0 : EReal) < (((into dst v).card : ℝ) : EReal))) = 1#1
      rw [decide_eq_true (by exact_mod_cast hpos)]; rfl
    rw [hc]
    show (if (1#1 : BitVec 1) = 1 then _ else _) = _
    rw [if_pos (by decide), Ideal.rsqrt_coe, if_neg (not_lt.mpr hpos.le), if_neg hpos.ne']
  · refine ⟨0, le_refl _, ?_⟩
    have hc : Ideal.cmp .ogt ((((into dst v).card : ℝ) : EReal)) 0 = 0#1 := by
      show BitVec.ofBool (decide ((0 : EReal) < (((into dst v).card : ℝ) : EReal))) = 0#1
      rw [decide_eq_false (by intro h; exact hpos (by exact_mod_cast h))]; rfl
    rw [hc]
    show (if (0#1 : BitVec 1) = 1 then _ else _) = _
    rw [if_neg (by decide)]; rfl

/-! ## A nonnegative real factor moves inside a sum -/

theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The two ways of writing a layer agree. -/
theorem layerAfter_eq_layerInside (src dst : Fin 1650000 → BitVec 32) (h : Fin 50000 → Fin 128 → EReal)
    (W : Fin 128 → Fin 128 → EReal) (b : Fin 128 → EReal) (v : Fin 50000) (k : Fin 128) :
    layerAfter src dst h W b v k = layerInside src dst h W b v k := by
  unfold layerAfter layerInside
  obtain ⟨r, hr, hd⟩ := dinv_real dst v
  have key : (zeroF + ∑ e ∈ into dst v, proj h W (srcRow src e) k * dinv dst (srcRow src e)) * dinv dst v
      = zeroF + ∑ e ∈ into dst v,
          proj h W (srcRow src e) k * (dinv dst (srcRow src e) * dinv dst (rowOf (wrap (dst e)))) := by
    rw [zeroF_eq, zero_add, zero_add, hd, sum_mul_real _ _ r hr]
    refine Finset.sum_congr rfl fun e he => ?_
    rw [rowOf_wrap_of_into he, hd, mul_assoc]
  rw [key]

/-! ## The whole computation -/

/-- Position e of an edge list: for e < 1600000 the entry (r, e) of the [2, 1600000] integer argument, then the
    self-loop e - 1600000. -/
def edgeOf (r : Fin 2) (ei : (⟨2, ![2, 1600000]⟩ : Shape).Idx → BitVec 32) (e : Fin 1650000) : BitVec 32 :=
  if h : e.val < 1600000 then ei (ix2 r ⟨e.val, h⟩) else BitVec.ofNat 32 (e.val - 1600000)

/-- The shape of a layer function: source list, destination list, features, weights, bias ↦ new features. -/
abbrev Layer : Type := (Fin 1650000 → BitVec 32) → (Fin 1650000 → BitVec 32) → (Fin 50000 → Fin 128 → EReal) →
  (Fin 128 → Fin 128 → EReal) → (Fin 128 → EReal) → Fin 50000 → Fin 128 → EReal

/-- The features after both layers, for a given way L of writing a layer. -/
def feats (L : Layer) (x : (⟨2, ![50000, 128]⟩ : Shape).Idx → EReal) (ei : (⟨2, ![2, 1600000]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) : Fin 50000 → Fin 128 → EReal :=
  L (edgeOf 0 ei) (edgeOf 1 ei)
    (L (edgeOf 0 ei) (edgeOf 1 ei) (fun s j => x (ix2 s j)) (fun j k => W1 (ix2 j k)) (fun k => b1 (ix1 k)))
    (fun j k => W2 (ix2 j k)) (fun k => b2 (ix1 k))

/-- The score of pair p, for a given way L of writing a layer. -/
def resultWith (L : Layer) (x : (⟨2, ![50000, 128]⟩ : Shape).Idx → EReal) (ei : (⟨2, ![2, 1600000]⟩ : Shape).Idx → BitVec 32)
    (pairs : (⟨2, ![200000, 2]⟩ : Shape).Idx → BitVec 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (Wh1 : (⟨2, ![256, 128]⟩ : Shape).Idx → EReal) (bh1 : (⟨1, ![128]⟩ : Shape).Idx → EReal)
    (Wh2 : (⟨2, ![128, 1]⟩ : Shape).Idx → EReal) (bh2 : (⟨1, ![1]⟩ : Shape).Idx → EReal) (p : Fin 200000) : EReal :=
  head (feats L x ei W1 b1 W2 b2 (rowOf (wrap (pairs (ix2 p (0 : Fin 2))))))
    (feats L x ei W1 b1 W2 b2 (rowOf (wrap (pairs (ix2 p (1 : Fin 2))))))
    (fun j k => Wh1 (ix2 j k)) (fun k => bh1 (ix1 k)) (fun k => Wh2 (ix2 k (0 : Fin 1))) (bh2 (ix1 (0 : Fin 1)))

/-- The two ways of writing a layer give one score. -/
theorem resultWith_after_eq_inside : resultWith layerAfter = resultWith layerInside := by
  have h : (layerAfter : Layer) = layerInside := by
    funext src dst h W b v k; exact layerAfter_eq_layerInside src dst h W b v k
  rw [h]

end Cert.Gcn

end
-- ==== Proof.LibTypedRef.lean ====
/-
  Typed references: contents moved to a typed reference's buffer and back are unchanged.

  An operation of a module-local function (a relu, a log_softmax, … that the program calls) is written over typed
  references: each operand is read from its buffer at the value's own type and each result is stored at the buffer's
  type, two transports along the same equation of types. Read after a fold of such operations, every intermediate value
  therefore appears wrapped as "stored, then read": the wrapping is the identity, whatever the reference. (After
  rewriting with `ofBuf_toBuf` only the line's own ends keep a transport — the first operand read and the last result
  stored — and each of those is the identity by computation at the literal reference.)
-/
import Idealize.ShloMosaic.Lib.StableHlo

namespace Cert.LibTypedRef

open Idealize.ShloMosaic Idealize.ShloMosaic.StableHlo

variable {sig : RefSig} {Val : EltTy → Type} {T : BufTy}

/-- A value stored at a typed reference's buffer and read back is the value. -/
theorem ofBuf_toBuf (x : TRef sig T) (v : T.Contents Val) : x.ofBuf (x.toBuf v) = v := by
  obtain ⟨r, rfl, h2, h3⟩ := x
  rfl

/-- Buffer contents read at the value's type and stored back are the contents. -/
theorem toBuf_ofBuf (x : TRef sig T) (v : x.ref.ty.Contents Val) : x.toBuf (x.ofBuf v) = v := by
  obtain ⟨r, rfl, h2, h3⟩ := x
  rfl

end Cert.LibTypedRef
-- ==== Proof.KernelRun.lean ====
/-
  The idealized kernel's run with its result array named.

  The program is five pipelined regions among stretches of host operations.  Every weakly fair execution from a
  memory with zero counters terminates without a fault; at the end every buffer outside the regions' scoped
  storage holds what the boundary-by-boundary account of the program says: a host stretch leaves the values of
  its operations, a region leaves in each of its arrays the blocks its grid points wrote back.  Here that account
  is read at the result array, beside the argument arrays (unchanged).
-/
import proofs.«147584_j43087111914333_2_alg».proof.Proof.Gen.KernelIdeal.Frame

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelSide

end
-- ==== Proof.KernelHost.lean ====
/-
  What the host operations between the kernel's regions leave in the buffers the regions read.

  Before the first region: the two edge lists (a row of the [2, 1600000] integer argument followed by the self-loops),
  the degree of every node (ones accumulated through the destination list), its inverse square root where positive,
  laid out as a [50000, 1] column, and the two bias vectors as [1, 128] rows.  Between a projecting region and the
  region that rescales: the projected rows fetched through the wrapped source list and accumulated through the
  destination list.  Before the last region: the rows of the second layer's features fetched through the two columns of
  the pair list, and the head's two biases as a [1, 128] row and a [1, 1] entry.
  Every other buffer a region reads (an argument, the degree column) is untouched by the stretches in between.
-/
import proofs.«147584_j43087111914333_2_alg».proof.Proof.Gen.KernelIdeal.Frame
import Idealize.ShloMosaic.Lib.StableHlo.Run
import Idealize.ShloMosaic.Lib.ValueIdx
import proofs.«147584_j43087111914333_2_alg».proof.Proof.LibTypedRef

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

/-! ## The stretches' values as functions of the arrays they read -/

/-- An edge list: row o of the integer argument, then the self-loops. -/
def edgeL (o : Nat) (hs : S2x1600000.Slices ![o, 0] S1x1600000) (a1 : IVec S2x1600000 32) : IVec S1650000 32 :=
  concatenate S1650000 0 [⟨S1600000, shapeCast S1600000 (extractStridedSlice S1x1600000 ![o, 0] a1 hs) shapeCasts_S1x1600000_S1600000⟩,
    ⟨S50000, iotaInDim S50000 32 0⟩] concatenates_S1600000_S50000_S1650000_d0

def srcL (a1 : IVec S2x1600000 32) : IVec S1650000 32 := edgeL 0 slices_S2x1600000_S1x1600000_0_0 a1
def dstL (a1 : IVec S2x1600000 32) : IVec S1650000 32 := edgeL 1 slices_S2x1600000_S1x1600000_1_0 a1

/-- The degrees: ones accumulated into zeros through the destination list. -/
def degA (a1 : IVec S2x1600000 32) : FVec Ideal S50000 .f32 :=
  Host.scatterAdd scatter_S50000_S1650000x1_S1650000_n_0_0_1 (broadcastInDim S50000 ![] bcast_S_S50000 (constant S_ .f32 0x00000000#32))
    (broadcastInDim S1650000x1 ![0] bcast_S1650000_S1650000x1_0 (dstL a1))
    (broadcastInDim S1650000 ![] bcast_S_S1650000 (constant S_ .f32 0x3F800000#32))

/-- The inverse square roots of the positive degrees, zero elsewhere. -/
def dinvA (a1 : IVec S2x1600000 32) : FVec Ideal S50000 .f32 :=
  select (cmpf .ogt (degA a1) (broadcastInDim S50000 ![] bcast_S_S50000 (constant S_ .f32 0x00000000#32))) (Host.rsqrt (degA a1))
    (broadcastInDim S50000 ![] bcast_S_S50000 (constant S_ .f32 0x00000000#32))

/-- The wrapped list as a column. -/
def wrapCol1650000 (l : IVec S1650000 32) : IVec S1650000x1 32 :=
  broadcastInDim S1650000x1 ![0] bcast_S1650000_S1650000x1_0
    (select (cmpi .slt l (broadcastInDim S1650000 ![] bcast_S_S1650000 (constantI S_ 32 0#32)))
      (addi l (broadcastInDim S1650000 ![] bcast_S_S1650000 (constantI S_ 32 50000#32))) l)

/-- Rows of a table fetched through the source list and accumulated through the destination list. -/
def aggA (a1 : IVec S2x1600000 32) (tbl : FVec Ideal S50000x128 .f32) : FVec Ideal S50000x128 .f32 :=
  Host.scatterAdd scatter_S50000x128_S1650000x1_S1650000x128_1_0_0_1 (broadcastInDim S50000x128 ![] bcast_S_S50000x128 (constant S_ .f32 0x00000000#32))
    (broadcastInDim S1650000x1 ![0] bcast_S1650000_S1650000x1_0 (dstL a1))
    (Host.gather gather_S50000x128_S1650000x1_S1650000x128_1_0_n_n_0_1_1128 tbl (wrapCol1650000 (srcL a1)))

/-- Column o of the pair list, wrapped, as a column. -/
def pairCol (o : Nat) (hs : S200000x2.Slices ![0, o] S200000x1) (a2 : IVec S200000x2 32) : IVec S200000x1 32 :=
  broadcastInDim S200000x1 ![0] bcast_S200000_S200000x1_0
    (select (cmpi .slt (shapeCast S200000 (extractStridedSlice S200000x1 ![0, o] a2 hs) shapeCasts_S200000x1_S200000) (broadcastInDim S200000 ![] bcast_S_S200000 (constantI S_ 32 0#32)))
      (addi (shapeCast S200000 (extractStridedSlice S200000x1 ![0, o] a2 hs) shapeCasts_S200000x1_S200000) (broadcastInDim S200000 ![] bcast_S_S200000 (constantI S_ 32 50000#32)))
      (shapeCast S200000 (extractStridedSlice S200000x1 ![0, o] a2 hs) shapeCasts_S200000x1_S200000))

variable (m : (ℓ : Loc nD τ sig) → Buf (Elt Ideal) ℓ) (ρ : Dev nD → PrngReg) (c : Dev nD)

/-- A buffer no operation of a stretch writes keeps its contents. -/
macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-! ## One stretch at a time, from any contents -/

section Stretch
variable (W : Valuation τ sig (Elt Ideal))

set_option maxHeartbeats 4000000 in
theorem s0_v3 : StableHlo.after hostOps0 W (Proc.devRef .tc main_v3) = srcL (W (Proc.devRef .tc main_arg1)) := by
  after_results; rfl

set_option maxHeartbeats 4000000 in
theorem s0_v6 : StableHlo.after hostOps0 W (Proc.devRef .tc main_v6) = dstL (W (Proc.devRef .tc main_arg1)) := by
  after_results; rfl

set_option maxHeartbeats 4000000 in
theorem s0_v12 : StableHlo.after hostOps0 W (Proc.devRef .tc main_v12)
    = cmpf .ogt (degA (W (Proc.devRef .tc main_arg1))) (broadcastInDim S50000 ![] bcast_S_S50000 (constant (F := Ideal) S_ .f32 0x00000000#32)) := by
  after_results; rfl

set_option maxHeartbeats 4000000 in
theorem s0_v13 : StableHlo.after hostOps0 W (Proc.devRef .tc main_v13) = Host.rsqrt (degA (W (Proc.devRef .tc main_arg1))) := by
  after_results; rfl

set_option maxHeartbeats 4000000 in
theorem s0_cst2 : StableHlo.after hostOps0 W (Proc.devRef .tc main_cst_2) = constant (F := Ideal) S_ .f32 0x00000000#32 := by
  after_results

theorem s01_v14 : StableHlo.after hostOps0_1 W (Proc.devRef .tc main_v14)
    = select (W (Proc.devRef .tc main_v12)) (W (Proc.devRef .tc main_v13))
        (broadcastInDim S50000 ![] bcast_S_S50000 (W (Proc.devRef .tc main_cst_2))) := by
  after_results
  simp only [Cert.LibTypedRef.ofBuf_toBuf]
  rfl

theorem s02_v15 : StableHlo.after hostOps0_2 W (Proc.devRef .tc main_v15)
    = shapeCast S50000x1 (W (Proc.devRef .tc main_v14)) shapeCasts_S50000_S50000x1 := by
  after_results; rfl

theorem s02_v16 : StableHlo.after hostOps0_2 W (Proc.devRef .tc main_v16)
    = shapeCast S1x128 (W (Proc.devRef .tc main_arg4)) shapeCasts_S128_S1x128 := by
  after_results; rfl

theorem s02_v17 : StableHlo.after hostOps0_2 W (Proc.devRef .tc main_v17)
    = shapeCast S1x128 (W (Proc.devRef .tc main_arg6)) shapeCasts_S128_S1x128 := by
  after_results; rfl

set_option maxHeartbeats 4000000 in
theorem s1_v28 : StableHlo.after hostOps1 W (Proc.devRef .tc main_v28)
    = Host.scatterAdd scatter_S50000x128_S1650000x1_S1650000x128_1_0_0_1
        (broadcastInDim S50000x128 ![] bcast_S_S50000x128 (constant (F := Ideal) S_ .f32 0x00000000#32))
        (broadcastInDim S1650000x1 ![0] bcast_S1650000_S1650000x1_0 (W (Proc.devRef .tc main_v6)))
        (Host.gather gather_S50000x128_S1650000x1_S1650000x128_1_0_n_n_0_1_1128 (W (Proc.devRef .tc main_v18))
          (wrapCol1650000 (W (Proc.devRef .tc main_v3)))) := by
  after_results <;> rfl

set_option maxHeartbeats 4000000 in
theorem s3_v40 : StableHlo.after hostOps3 W (Proc.devRef .tc main_v40)
    = Host.scatterAdd scatter_S50000x128_S1650000x1_S1650000x128_1_0_0_1
        (broadcastInDim S50000x128 ![] bcast_S_S50000x128 (constant (F := Ideal) S_ .f32 0x00000000#32))
        (broadcastInDim S1650000x1 ![0] bcast_S1650000_S1650000x1_0 (W (Proc.devRef .tc main_v6)))
        (Host.gather gather_S50000x128_S1650000x1_S1650000x128_1_0_n_n_0_1_1128 (W (Proc.devRef .tc main_v30))
          (wrapCol1650000 (W (Proc.devRef .tc main_v3)))) := by
  after_results <;> rfl

set_option maxHeartbeats 4000000 in
theorem s4_v51 : StableHlo.after hostOps4 W (Proc.devRef .tc main_v51)
    = Host.gather gather_S50000x128_S200000x1_S200000x128_1_0_n_n_0_1_1128
        (truncf (F := Ideal) .bf16 (W (Proc.devRef .tc main_v41)) bitsLt_bf16_f32)
        (pairCol 0 slices_S200000x2_S200000x1_0_0 (W (Proc.devRef .tc main_arg2))) := by
  after_results <;> rfl

set_option maxHeartbeats 4000000 in
theorem s4_v60 : StableHlo.after hostOps4 W (Proc.devRef .tc main_v60)
    = Host.gather gather_S50000x128_S200000x1_S200000x128_1_0_n_n_0_1_1128
        (truncf (F := Ideal) .bf16 (W (Proc.devRef .tc main_v41)) bitsLt_bf16_f32)
        (pairCol 1 slices_S200000x2_S200000x1_0_1 (W (Proc.devRef .tc main_arg2))) := by
  after_results <;> rfl

set_option maxHeartbeats 4000000 in
theorem s4_v61 : StableHlo.after hostOps4 W (Proc.devRef .tc main_v61)
    = shapeCast S1x128 (W (Proc.devRef .tc main_arg8)) shapeCasts_S128_S1x128 := by
  after_results <;> rfl

set_option maxHeartbeats 4000000 in
theorem s4_v62 : StableHlo.after hostOps4 W (Proc.devRef .tc main_v62)
    = shapeCast S1x1 (W (Proc.devRef .tc main_arg10)) shapeCasts_S1_S1x1 := by
  after_results <;> rfl

end Stretch

/-! ## Buffers carried unchanged across boundaries

Between two boundaries a buffer changes only if a host operation of the stretch writes it or it is the output array
of the region; an input array of a region ends as it was entered. -/

theorem keep_arg0_3_0 : W3 m ρ c (Proc.devRef .tc main_arg0) = W0 m ρ c (Proc.devRef .tc main_arg0) :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0

theorem keep_arg3_3_0 : W3 m ρ c (Proc.devRef .tc main_arg3) = W0 m ρ c (Proc.devRef .tc main_arg3) :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0

theorem keep_v15_5_3 : W5 m ρ c (Proc.devRef .tc main_v15) = W3 m ρ c (Proc.devRef .tc main_v15) :=
  calc W5 m ρ c (Proc.devRef .tc main_v15)
    _ = W4 m ρ c (Proc.devRef .tc main_v15) := by host_keeps hostOps1
    _ = W3 m ρ c (Proc.devRef .tc main_v15) := (W4_arr m ρ c 2).trans (((dat0 (V3 m ρ) c).arrAt_in 2 rfl _).trans (A_eq0 (V3 m ρ) c 2))

theorem keep_v15_6_5 : W6 m ρ c (Proc.devRef .tc main_v15) = W5 m ρ c (Proc.devRef .tc main_v15) :=
  calc W6 m ρ c (Proc.devRef .tc main_v15)
    _ = W5 m ρ c (Proc.devRef .tc main_v15) := (W6_arr m ρ c 1).trans (((dat1 (V5 m ρ) c).arrAt_in 1 rfl _).trans (A_eq1 (V5 m ρ) c 1))

theorem keep_v15_8_6 : W8 m ρ c (Proc.devRef .tc main_v15) = W6 m ρ c (Proc.devRef .tc main_v15) :=
  calc W8 m ρ c (Proc.devRef .tc main_v15)
    _ = W7 m ρ c (Proc.devRef .tc main_v15) := by host_keeps hostOps3
    _ = W6 m ρ c (Proc.devRef .tc main_v15) := (W7_arr m ρ c 2).trans (((dat2 (V6 m ρ) c).arrAt_in 2 rfl _).trans (A_eq2 (V6 m ρ) c 2))

theorem keep_v16_5_3 : W5 m ρ c (Proc.devRef .tc main_v16) = W3 m ρ c (Proc.devRef .tc main_v16) :=
  calc W5 m ρ c (Proc.devRef .tc main_v16)
    _ = W4 m ρ c (Proc.devRef .tc main_v16) := by host_keeps hostOps1
    _ = W3 m ρ c (Proc.devRef .tc main_v16) := W4_of_ne m ρ c main_v16 (by decide)

theorem keep_v17_8_3 : W8 m ρ c (Proc.devRef .tc main_v17) = W3 m ρ c (Proc.devRef .tc main_v17) :=
  calc W8 m ρ c (Proc.devRef .tc main_v17)
    _ = W7 m ρ c (Proc.devRef .tc main_v17) := by host_keeps hostOps3
    _ = W6 m ρ c (Proc.devRef .tc main_v17) := W7_of_ne m ρ c main_v17 (by decide)
    _ = W5 m ρ c (Proc.devRef .tc main_v17) := W6_of_ne m ρ c main_v17 (by decide)
    _ = W4 m ρ c (Proc.devRef .tc main_v17) := by host_keeps hostOps1
    _ = W3 m ρ c (Proc.devRef .tc main_v17) := W4_of_ne m ρ c main_v17 (by decide)

theorem keep_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps hostOps0_2
    _ = W1 m ρ c (Proc.devRef .tc main_v3) := by host_keeps hostOps0_1

theorem keep_v3_7_4 : W7 m ρ c (Proc.devRef .tc main_v3) = W4 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keeps hostOps1

theorem keep_v6_4_1 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by host_keeps hostOps0_2
    _ = W1 m ρ c (Proc.devRef .tc main_v6) := by host_keeps hostOps0_1

theorem keep_v6_7_4 : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keeps hostOps1

theorem keep_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps1
    _ = W3 m ρ c (Proc.devRef .tc main_arg5) := W4_of_ne m ρ c main_arg5 (by decide)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0

theorem keep_arg2_11_9 : W11 m ρ c (Proc.devRef .tc main_arg2) = W9 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := by host_keeps hostOps4

theorem keep_arg8_11_9 : W11 m ρ c (Proc.devRef .tc main_arg8) = W9 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := by host_keeps hostOps4

theorem keep_arg10_11_9 : W11 m ρ c (Proc.devRef .tc main_arg10) = W9 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_keeps hostOps4

theorem keep_arg7_11_10 : W11 m ρ c (Proc.devRef .tc main_arg7) = W10 m ρ c (Proc.devRef .tc main_arg7) :=
  calc W11 m ρ c (Proc.devRef .tc main_arg7)
    _ = W10 m ρ c (Proc.devRef .tc main_arg7) := (W11_arr m ρ c 2).trans (((dat4 (V10 m ρ) c).arrAt_in 2 rfl _).trans (A_eq4 (V10 m ρ) c 2))

theorem keep_arg9_11_10 : W11 m ρ c (Proc.devRef .tc main_arg9) = W10 m ρ c (Proc.devRef .tc main_arg9) :=
  calc W11 m ρ c (Proc.devRef .tc main_arg9)
    _ = W10 m ρ c (Proc.devRef .tc main_arg9) := (W11_arr m ρ c 4).trans (((dat4 (V10 m ρ) c).arrAt_in 4 rfl _).trans (A_eq4 (V10 m ρ) c 4))

theorem keep_arg4_2_0 : W2 m ρ c (Proc.devRef .tc main_arg4) = W0 m ρ c (Proc.devRef .tc main_arg4) :=
  calc W2 m ρ c (Proc.devRef .tc main_arg4)
    _ = W1 m ρ c (Proc.devRef .tc main_arg4) := by host_keeps hostOps0_1
    _ = W0 m ρ c (Proc.devRef .tc main_arg4) := by host_keeps hostOps0

theorem keep_arg6_2_0 : W2 m ρ c (Proc.devRef .tc main_arg6) = W0 m ρ c (Proc.devRef .tc main_arg6) :=
  calc W2 m ρ c (Proc.devRef .tc main_arg6)
    _ = W1 m ρ c (Proc.devRef .tc main_arg6) := by host_keeps hostOps0_1
    _ = W0 m ρ c (Proc.devRef .tc main_arg6) := by host_keeps hostOps0

end Cert.KernelSide

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.LibBroadcastIn.lean ====
/-
  A host broadcast along named axes, read at an index, for the small shapes a per-row scale and a per-column bias
  take: a vector as a column, a column across the columns, a vector as a row, a row down the rows. Generic in the
  extents.
-/
import Idealize.ShloMosaic.Lib.Pipeline.Value
import Idealize.ShloMosaic.Lib.ValueIdx

noncomputable section

namespace Idealize.ShloMosaic.ValueIdx

variable {α : Type}

/-- A vector [a] as a column [a, 1]: entry (e, 0) is entry e. -/
theorem broadcastInDim_a_a1_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) := by
  refine broadcastInDim_apply ![0] h x (ix2 e u) (ix1 e) fun ax => ?_
  match ax with
  | ⟨0, _⟩ =>
    show e.val = if a = 1 then 0 else e.val
    have := e.isLt
    split <;> omega

/-- A column [a, 1] across b columns: entry (e, k) is entry (e, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (e : Fin a) (k : Fin b) :
    broadcastInDim ⟨2, ![a, b]⟩ ![0, 1] h x (ix2 e k) = x (ix2 e (0 : Fin 1)) := by
  refine broadcastInDim_apply ![0, 1] h x (ix2 e k) (ix2 e (0 : Fin 1)) fun ax => ?_
  match ax with
  | ⟨0, _⟩ =>
    show e.val = if a = 1 then 0 else e.val
    have := e.isLt
    split <;> omega
  | ⟨1, _⟩ =>
    show (0 : ℕ) = if (1 : ℕ) = 1 then 0 else k.val
    rw [if_pos rfl]

/-- A vector [b] as a row [1, b]: entry (0, k) is entry k. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    have := k.isLt
    split <;> omega

/-- A row [1, b] down a rows: entry (n, k) is entry (0, k). -/
theorem broadcastInDim_1b_ab_apply {a b : ℕ} (x : (⟨2, ![1, b]⟩ : Shape).Idx → α)
    (h : (⟨2, ![1, b]⟩ : Shape).BroadcastsInDim ⟨2, ![a, b]⟩ ![0, 1]) (n : Fin a) (k : Fin b) :
    broadcastInDim ⟨2, ![a, b]⟩ ![0, 1] h x (ix2 n k) = x (ix2 (0 : Fin 1) k) := by
  refine broadcastInDim_apply ![0, 1] h x (ix2 n k) (ix2 (0 : Fin 1) k) fun ax => ?_
  match ax with
  | ⟨0, _⟩ =>
    show (0 : ℕ) = if (1 : ℕ) = 1 then 0 else n.val
    rw [if_pos rfl]
  | ⟨1, _⟩ =>
    show k.val = if b = 1 then 0 else k.val
    have := k.isLt
    split <;> omega

end Idealize.ShloMosaic.ValueIdx

end
-- ==== Proof.Aggregate.lean ====
/-
  Fetching rows through a list of integers.

  A list of M integers is first wrapped (a negative entry gets 50000 added) and laid out as an [M, 1] column; a row
  fetch through that column reads, at position e, the table's row `rowOf (wrap (list e))`.
-/
import Idealize.ShloMosaic.Lib.ValueIdx
import Idealize.ShloMosaic.PureOps.Ideal
import proofs.«147584_j43087111914333_2_alg».proof.Proof.Spec
import proofs.«147584_j43087111914333_2_alg».proof.Proof.LibEdgeIndex
import proofs.«147584_j43087111914333_2_alg».proof.Proof.LibBroadcastIn

set_option maxRecDepth 16384

noncomputable section

open scoped BigOperators

namespace Cert.Gcn

open Idealize.ShloMosaic Idealize.ShloMosaic.ValueIdx Idealize.ShloMosaic.EdgeIndex

/-- The wrapped list as a column, read at (e, 0). -/
theorem wrapCol_apply {M : Nat} (hbI : (⟨1, ![M]⟩ : Shape).BroadcastsInDim ⟨2, ![M, 1]⟩ ![0])
    (hbc : (⟨0, ![]⟩ : Shape).BroadcastsInDim ⟨1, ![M]⟩ ![]) (l : IVec ⟨1, ![M]⟩ 32) (e : Fin M) :
    broadcastInDim ⟨2, ![M, 1]⟩ ![0] hbI
        (select (cmpi .slt l (broadcastInDim ⟨1, ![M]⟩ ![] hbc (constantI ⟨0, ![]⟩ 32 0#32)))
          (addi l (broadcastInDim ⟨1, ![M]⟩ ![] hbc (constantI ⟨0, ![]⟩ 32 50000#32))) l) (ix2 e (0 : Fin 1))
      = wrap (l (ix1 e)) := by
  rw [broadcastInDim_a_a1_apply]
  show Scalar.select (IntOp.cmpi .slt (l (ix1 e)) (broadcastInDim ⟨1, ![M]⟩ ![] hbc (constantI ⟨0, ![]⟩ 32 0#32) (ix1 e)))
      (IntOp.addi (l (ix1 e)) (broadcastInDim ⟨1, ![M]⟩ ![] hbc (constantI ⟨0, ![]⟩ 32 50000#32) (ix1 e))) (l (ix1 e)) = _
  rw [broadcastInDim_scalar_apply, broadcastInDim_scalar_apply]
  rfl

/-- A row fetch through the wrapped column reads the row the wrapped integer names. -/
theorem fetch_apply {M : Nat} {α : Type} (dG : GatherDims ⟨2, ![50000, 128]⟩ ⟨2, ![M, 1]⟩ ⟨2, ![M, 128]⟩)
    (wfG : GatherDims.WF ⟨2, ![50000, 128]⟩ ⟨2, ![M, 1]⟩ ⟨2, ![M, 128]⟩ [1] [0] [] [0] [] 1 ![1, 128])
    (hG : dG = rowGatherDims 50000 M 128 wfG)
    (hbI : (⟨1, ![M]⟩ : Shape).BroadcastsInDim ⟨2, ![M, 1]⟩ ![0])
    (hbc : (⟨0, ![]⟩ : Shape).BroadcastsInDim ⟨1, ![M]⟩ ![])
    (tbl : (⟨2, ![50000, 128]⟩ : Shape).Idx → α) (l : IVec ⟨1, ![M]⟩ 32) (e : Fin M) (k : Fin 128) :
    Host.gather dG tbl (broadcastInDim ⟨2, ![M, 1]⟩ ![0] hbI
        (select (cmpi .slt l (broadcastInDim ⟨1, ![M]⟩ ![] hbc (constantI ⟨0, ![]⟩ 32 0#32)))
          (addi l (broadcastInDim ⟨1, ![M]⟩ ![] hbc (constantI ⟨0, ![]⟩ 32 50000#32))) l)) (ix2 e k)
      = tbl (ix2 (rowOf (wrap (l (ix1 e)))) k) := by
  subst hG
  rw [gather_row_apply (by decide : 0 < 50000)]
  refine congrArg (fun r => tbl (ix2 r k)) (Fin.ext ?_)
  show min (broadcastInDim ⟨2, ![M, 1]⟩ ![0] hbI
        (select (cmpi .slt l (broadcastInDim ⟨1, ![M]⟩ ![] hbc (constantI ⟨0, ![]⟩ 32 0#32)))
          (addi l (broadcastInDim ⟨1, ![M]⟩ ![] hbc (constantI ⟨0, ![]⟩ 32 50000#32))) l) (ix2 e (0 : Fin 1))).toInt.toNat (50000 - 1)
      = min (wrap (l (ix1 e))).toInt.toNat (50000 - 1)
  rw [wrapCol_apply]

end Cert.Gcn

end
-- ==== Proof.LibEdgeList.lean ====
/-
  An edge list with self-loops, read at a position.

  A [2, 1600000] table of 32-bit integers holds one row of sources and one row of destinations.  Row r is cut out,
  flattened to 1600000 entries and followed by the integers 0, 1, …, 49999 (one self-loop per node).  Position e of
  the resulting list of 1650000 integers is therefore entry (r, e) of the table when e < 1600000, and the integer
  e - 1600000 otherwise: this is Cert.Gcn.edgeOf r.
-/
import Idealize.ShloMosaic.Lib.ValueIdx
import Idealize.ShloMosaic.Lib.Pipeline.Value
import Idealize.ShloMosaic.Lib.IdealHost
import proofs.«147584_j43087111914333_2_alg».proof.Proof.Spec

set_option maxRecDepth 16384

noncomputable section

namespace Idealize.ShloMosaic.EdgeList

open Idealize.ShloMosaic Idealize.ShloMosaic.ValueIdx

/-- Row o of the table, flattened and followed by 0 … 49999, read at position e. -/
theorem edgeList_apply (o : Nat) (ho : o < 2) (x : (⟨2, ![2, 1600000]⟩ : Shape).Idx → BitVec 32)
    (hs : (⟨2, ![2, 1600000]⟩ : Shape).Slices ![o, 0] (⟨2, ![1, 1600000]⟩ : Shape))
    (hc : (⟨2, ![1, 1600000]⟩ : Shape).ShapeCasts (⟨1, ![1600000]⟩ : Shape))
    (hk : Shape.Concatenates [(⟨1, ![1600000]⟩ : Shape), (⟨1, ![50000]⟩ : Shape)] (⟨1, ![1650000]⟩ : Shape) 0)
    (e : Fin 1650000) :
    concatenate (⟨1, ![1650000]⟩ : Shape) 0
        [⟨(⟨1, ![1600000]⟩ : Shape), shapeCast (⟨1, ![1600000]⟩ : Shape)
            (extractStridedSlice (⟨2, ![1, 1600000]⟩ : Shape) ![o, 0] x hs) hc⟩,
          ⟨(⟨1, ![50000]⟩ : Shape), (iotaInDim (⟨1, ![50000]⟩ : Shape) 32 0 : (⟨1, ![50000]⟩ : Shape).Idx → BitVec 32)⟩] hk (ix1 e)
      = Cert.Gcn.edgeOf ⟨o, ho⟩ x e := by
  unfold Cert.Gcn.edgeOf
  by_cases h : e.val < 1600000
  · rw [dif_pos h]
    -- the position falls in the first piece
    refine (concatenate_pair_apply_left (t := (⟨1, ![1650000]⟩ : Shape)) (s₁ := (⟨1, ![1600000]⟩ : Shape))
      (s₂ := (⟨1, ![50000]⟩ : Shape)) (0 : Fin 1) _ _ hk (ix1 e) rfl (ix1 (⟨e.val, h⟩ : Fin 1600000))
      (fun b => by match b with | ⟨0, _⟩ => rfl)).trans ?_
    refine (shapeCast_apply _ hc (ix1 (⟨e.val, h⟩ : Fin 1600000)) (ix2 (0 : Fin 1) (⟨e.val, h⟩ : Fin 1600000)) ?_).trans ?_
    · rw [Shape.rowMajor_val_two, Shape.rowMajor_val_one]
      show 0 * 1600000 + e.val = e.val
      omega
    · refine extractStridedSlice_apply ![o, 0] x hs (ix2 (0 : Fin 1) (⟨e.val, h⟩ : Fin 1600000))
        (ix2 (⟨o, ho⟩ : Fin 2) (⟨e.val, h⟩ : Fin 1600000)) (fun a => ?_)
      match a with
      | ⟨0, _⟩ => show o = o + 0; omega
      | ⟨1, _⟩ => show e.val = 0 + e.val; omega
  · rw [dif_neg h]
    have he := e.isLt
    -- the position falls in the second piece, 1600000 places in
    refine (concatenate_pair_apply_right (t := (⟨1, ![1650000]⟩ : Shape)) (s₁ := (⟨1, ![1600000]⟩ : Shape))
      (s₂ := (⟨1, ![50000]⟩ : Shape)) (0 : Fin 1) _ _ hk (ix1 e) rfl rfl (ix1 (⟨e.val - 1600000, by omega⟩ : Fin 50000))
      (fun b hb => by match b with | ⟨0, _⟩ => exact absurd rfl hb) ?_).trans ?_
    · show (e.val - 1600000) + 1600000 = e.val
      omega
    · rfl

end Idealize.ShloMosaic.EdgeList

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KernelTerms.lean ====
/-
  The host stretches' values, entry by entry, in the terms of the specification.

  The edge lists read at a position are the specification's lists; the degree of a node is 0 plus a 1 for every
  position arriving at it; the fetched-and-accumulated table reads at (v, k) the sum over the positions arriving at
  v of the fetched rows' k-th entries; a row fetched through a column of the pair list is the row that column's
  integer names after wrapping.
-/
import proofs.«147584_j43087111914333_2_alg».proof.Proof.KernelHost
import proofs.«147584_j43087111914333_2_alg».proof.Proof.Aggregate
import proofs.«147584_j43087111914333_2_alg».proof.Proof.LibEdgeList
import proofs.«147584_j43087111914333_2_alg».proof.Proof.LibKeepdims

set_option maxRecDepth 16384

noncomputable section

open scoped BigOperators

namespace Cert.KernelSide

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Idealize.ShloMosaic.EdgeIndex Cert.Gcn

theorem srcL_apply (a1 : IVec S2x1600000 32) (e : Fin 1650000) : srcL a1 (ix1 e) = edgeOf 0 a1 e :=
  Idealize.ShloMosaic.EdgeList.edgeList_apply 0 (by decide) a1 slices_S2x1600000_S1x1600000_0_0 shapeCasts_S1x1600000_S1600000 concatenates_S1600000_S50000_S1650000_d0 e

theorem dstL_apply (a1 : IVec S2x1600000 32) (e : Fin 1650000) : dstL a1 (ix1 e) = edgeOf 1 a1 e :=
  Idealize.ShloMosaic.EdgeList.edgeList_apply 1 (by decide) a1 slices_S2x1600000_S1x1600000_1_0 shapeCasts_S1x1600000_S1600000 concatenates_S1600000_S50000_S1650000_d0 e

/-- Entry v of an accumulated vector: the old entry plus the updates of the positions arriving at v. -/
theorem scatterVec_at (x : FVec Ideal S50000 .f32) (col : IVec S1650000x1 32) (u : FVec Ideal S1650000 .f32) (v : Fin 50000) :
    Host.scatterAdd (F := Ideal) (φ := .f32) scatter_S50000_S1650000x1_S1650000_n_0_0_1 x col u (ix1 v)
      = x (ix1 v) + ∑ e ∈ into (fun e => col (ix2 e 0)) v, u (ix1 e) :=
  scatterAdd_vec_apply (N := 50000) (M := 1650000) scatter_S50000_S1650000x1_S1650000_n_0_0_1_wf x col u v

/-- Entry (v, k) of an accumulated table: the old entry plus the update rows of the positions arriving at v. -/
theorem scatterRow_at (x : FVec Ideal S50000x128 .f32) (col : IVec S1650000x1 32) (u : FVec Ideal S1650000x128 .f32)
    (v : Fin 50000) (k : Fin 128) :
    Host.scatterAdd (F := Ideal) (φ := .f32) scatter_S50000x128_S1650000x1_S1650000x128_1_0_0_1 x col u (ix2 v k)
      = x (ix2 v k) + ∑ e ∈ into (fun e => col (ix2 e 0)) v, u (ix2 e k) :=
  scatterAdd_row_apply (N := 50000) (M := 1650000) (D := 128) scatter_S50000x128_S1650000x1_S1650000x128_1_0_0_1_wf x col u v k

/-- The destination column names, at position e, the specification's destination. -/
theorem into_dstCol (a1 : IVec S2x1600000 32) (v : Fin 50000) :
    into (fun e => broadcastInDim S1650000x1 ![0] bcast_S1650000_S1650000x1_0 (dstL a1) (ix2 e 0)) v = into (edgeOf 1 a1) v :=
  congrArg (fun f => into f v) (funext fun e => (broadcastInDim_a_a1_apply _ _ _ _).trans (dstL_apply a1 e))

theorem degA_apply (a1 : IVec S2x1600000 32) (s : Fin 50000) : degA a1 (ix1 s) = deg (edgeOf 1 a1) s := by
  have h1 := scatterVec_at (broadcastInDim S50000 ![] bcast_S_S50000 (constant (F := Ideal) S_ .f32 0x00000000#32))
    (broadcastInDim S1650000x1 ![0] bcast_S1650000_S1650000x1_0 (dstL a1))
    (broadcastInDim S1650000 ![] bcast_S_S1650000 (constant (F := Ideal) S_ .f32 0x3F800000#32)) s
  have hz : broadcastInDim S50000 ![] bcast_S_S50000 (constant (F := Ideal) S_ .f32 0x00000000#32) (ix1 s) = zeroF :=
    broadcastInDim_scalar_apply _ _ _
  have ho : ∀ e : Fin 1650000, broadcastInDim S1650000 ![] bcast_S_S1650000 (constant (F := Ideal) S_ .f32 0x3F800000#32) (ix1 e) = oneF :=
    fun e => broadcastInDim_scalar_apply _ _ _
  refine h1.trans ?_
  rw [hz, into_dstCol]
  unfold deg
  exact congrArg (fun z => zeroF + z) (Finset.sum_congr rfl fun e _ => ho e)

/-- The inverse square root of an array, read at an entry. -/
theorem hostRsqrt_at {s : Shape} (x : FVec Ideal s .f32) (i : s.Idx) : Host.rsqrt x i = Ideal.rsqrt (x i) := rfl

/-- The zero word read as an extended real. -/
theorem zeroConst_at : constant (F := Ideal) S_ .f32 0x00000000#32 ix0 = zeroF := rfl

theorem dinvA_apply (a1 : IVec S2x1600000 32) (s : Fin 50000) : dinvA a1 (ix1 s) = dinv (edgeOf 1 a1) s := by
  unfold dinvA
  rw [select_apply, cmpf_apply, hostRsqrt_at, broadcastInDim_scalar_apply, zeroConst_at, degA_apply, Ideal.cmpf_def]
  unfold dinv
  rfl

theorem aggA_apply (a1 : IVec S2x1600000 32) (tbl : FVec Ideal S50000x128 .f32) (v : Fin 50000) (k : Fin 128) :
    aggA a1 tbl (ix2 v k)
      = zeroF + ∑ e ∈ into (edgeOf 1 a1) v, tbl (ix2 (srcRow (edgeOf 0 a1) e) k) := by
  have h1 := scatterRow_at (broadcastInDim S50000x128 ![] bcast_S_S50000x128 (constant (F := Ideal) S_ .f32 0x00000000#32))
    (broadcastInDim S1650000x1 ![0] bcast_S1650000_S1650000x1_0 (dstL a1))
    (Host.gather gather_S50000x128_S1650000x1_S1650000x128_1_0_n_n_0_1_1128 tbl (wrapCol1650000 (srcL a1))) v k
  have hz : broadcastInDim S50000x128 ![] bcast_S_S50000x128 (constant (F := Ideal) S_ .f32 0x00000000#32) (ix2 v k) = zeroF :=
    broadcastInDim_scalar_apply _ _ _
  have hrow : ∀ e : Fin 1650000, Host.gather gather_S50000x128_S1650000x1_S1650000x128_1_0_n_n_0_1_1128 tbl (wrapCol1650000 (srcL a1)) (ix2 e k)
      = tbl (ix2 (srcRow (edgeOf 0 a1) e) k) := fun e =>
    (fetch_apply gather_S50000x128_S1650000x1_S1650000x128_1_0_n_n_0_1_1128 gather_S50000x128_S1650000x1_S1650000x128_1_0_n_n_0_1_1128_wf rfl
      bcast_S1650000_S1650000x1_0 bcast_S_S1650000 tbl (srcL a1) e k).trans (by rw [srcL_apply]; rfl)
  refine h1.trans ?_
  rw [hz, into_dstCol]
  exact congrArg (fun z => zeroF + z) (Finset.sum_congr rfl fun e _ => hrow e)

/-- Column o of the pair list as a plain list, read at p. -/
theorem pairList_apply (o : Nat) (ho : o < 2) (hs : S200000x2.Slices ![0, o] S200000x1) (a2 : IVec S200000x2 32) (p : Fin 200000) :
    shapeCast S200000 (extractStridedSlice S200000x1 ![0, o] a2 hs) shapeCasts_S200000x1_S200000 (ix1 p) = a2 (ix2 p ⟨o, ho⟩) := by
  rw [shapeCast_apply _ _ (ix1 p) (ix2 p (0 : Fin 1)) (by
    rw [Shape.rowMajor_val_two, Shape.rowMajor_val_one]; show p.val * 1 + 0 = p.val; omega)]
  exact extractStridedSlice_apply _ a2 hs _ _ (fun a => by
    match a with
    | ⟨0, _⟩ => show p.val = 0 + p.val; omega
    | ⟨1, _⟩ => show o = o + 0; omega)

theorem pairFetch_apply {α : Type} (o : Nat) (ho : o < 2) (hs : S200000x2.Slices ![0, o] S200000x1) (a2 : IVec S200000x2 32)
    (tbl : S50000x128.Idx → α) (p : Fin 200000) (k : Fin 128) :
    Host.gather gather_S50000x128_S200000x1_S200000x128_1_0_n_n_0_1_1128 tbl (pairCol o hs a2) (ix2 p k)
      = tbl (ix2 (rowOf (wrap (a2 (ix2 p ⟨o, ho⟩)))) k) := by
  refine (fetch_apply gather_S50000x128_S200000x1_S200000x128_1_0_n_n_0_1_1128 gather_S50000x128_S200000x1_S200000x128_1_0_n_n_0_1_1128_wf rfl
    bcast_S200000_S200000x1_0 bcast_S_S200000 tbl _ p k).trans ?_
  rw [pairList_apply o ho]

end Cert.KernelSide

end
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.RegionProjPoint.lean ====
/-
  The projection body at one entry of its block.

  The body multiplies a [5000, 128] block of features by the [128, 128] weight matrix (the change of float format
  before the product is the identity on extended reals, and the accumulator starts at zero) and then scales row p
  by the p-th entry of a [5000, 1] column.  So entry (p, k) of what it stores is
      (Σ_j  x(p, j) · W(j, k)) · d(p, 0).
  Both projection bodies compute this; the second first passes its feature block through an identity reshape.
-/
import proofs.«147584_j43087111914333_2_alg».proof.Proof.Gen.KernelIdeal.Skeleton
import proofs.«147584_j43087111914333_2_alg».proof.Proof.LibMatmul
import proofs.«147584_j43087111914333_2_alg».proof.Proof.LibKeepdims

set_option maxRecDepth 16384

noncomputable section

open scoped BigOperators

namespace Cert.KernelSide

open Idealize.ShloMosaic Idealize.ShloMosaic.ValueIdx Cert.KernelIdeal Cert.KernelIdeal.Gen

/-- Entry (s, k) of the features X projected by W, row s scaled by the s-th entry of the column d. -/
def projEntry (X : S50000x128.Idx → EReal) (W : S128x128.Idx → EReal) (d : S50000x1.Idx → EReal)
    (s : Fin 50000) (k : Fin 128) : EReal :=
  (∑ j : Fin 128, X (ix2 s j) * W (ix2 j k)) * d (ix2 s (0 : Fin 1))

/-- The product-then-scale expression both projection bodies reduce to, at entry (p, k). -/
theorem proj_scale_apply (x : FVec Ideal S5000x128 .bf16) (w : FVec Ideal S128x128 .bf16) (d : FVec Ideal S5000x1 .f32)
    (p : Fin 5000) (k : Fin 128) :
    mulf (matmul dot_S5000x128_S128x128_S5000x128_1_0_0_1_n_n none x w (constant S5000x128 .f32 0x00000000#32))
        (broadcastTo S5000x128 (shapeCast S5000x1 d shapeCasts_S5000x1_S5000x1) broadcasts_S5000x1_S5000x128) (ix2 p k)
      = (∑ j : Fin 128, x (ix2 p j) * w (ix2 j k)) * d (ix2 p (0 : Fin 1)) := by
  rw [mulf_apply, shapeCast_self, broadcastTo_a1_ab_apply]
  congr 1
  have hd : dot_S5000x128_S128x128_S5000x128_1_0_0_1_n_n
      = MatmulIdx.mmDims 5000 128 128 dot_S5000x128_S128x128_S5000x128_1_0_0_1_n_n_wf := rfl
  rw [hd]
  exact MatmulIdx.matmul_zero_ix2 dot_S5000x128_S128x128_S5000x128_1_0_0_1_n_n_wf none x w p k

/-- Entry (p, k) of what the first projection body stores. -/
theorem k0_pay1_apply (x0 : Vec Ideal S5000x128 .f32) (x1 : Vec Ideal S128x128 .f32) (x2 : Vec Ideal S5000x1 .f32)
    (p : Fin 5000) (k : Fin 128) :
    k0_pay1 x0 x1 x2 (ix2 p k) = (∑ j : Fin 128, x0 (ix2 p j) * x1 (ix2 j k)) * x2 (ix2 p (0 : Fin 1)) := by
  unfold k0_pay1
  exact proj_scale_apply (truncf .bf16 x0 bitsLt_bf16_f32) (truncf .bf16 x1 bitsLt_bf16_f32) x2 p k

/-- Entry (p, k) of what the second projection body stores: the identity reshape of the feature block drops out. -/
theorem k2_pay1_apply (x0 : Vec Ideal S5000x128 .f32) (x1 : Vec Ideal S128x128 .f32) (x2 : Vec Ideal S5000x1 .f32)
    (p : Fin 5000) (k : Fin 128) :
    k2_pay1 x0 x1 x2 (ix2 p k) = (∑ j : Fin 128, x0 (ix2 p j) * x1 (ix2 j k)) * x2 (ix2 p (0 : Fin 1)) := by
  unfold k2_pay1
  rw [shapeCast_self]
  exact proj_scale_apply (truncf .bf16 x0 bitsLt_bf16_f32) (truncf .bf16 x1 bitsLt_bf16_f32) x2 p k

end Cert.KernelSide

end
-- ==== Proof.RegionProj0.lean ====
/-
  What projection region 0 leaves in its output array.

  The region walks 10 points; point t works on rows 5000·t … 5000·t + 4999.  It fetches those rows of the feature
  array and of the scaling column, the whole weight matrix, runs the body, and writes the 5000 result rows back to
  the same rows of the output array.  The ten row ranges tile the 50000 rows, so afterwards entry (s, k) of the
  output array is
      (Σ_j  X(s, j) · W(j, k)) · d(s, 0)
  with X, W, d the arrays as the region finds them.
-/
import proofs.«147584_j43087111914333_2_alg».proof.Proof.Gen.KernelIdeal.Frame
import proofs.«147584_j43087111914333_2_alg».proof.Proof.RegionProjPoint
import Idealize.ShloMosaic.Lib.Pipeline.Value

set_option maxRecDepth 16384

noncomputable section

open scoped BigOperators

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

namespace Proj0

variable (V : (c : Dev nD) → (b : Ref sig .tc) → Buf (Elt Ideal) ((c : Thread nD τ).loc b))

theorem hz : (![0, 0] : Fin 2 → Nat) = fun _ => 0 := funext fun a => by fin_cases a <;> rfl

/-- The output array after the region, entry by entry, from the arrays the region finds. -/
def G (c : Dev nD) : S50000x128.Idx → EReal := fun i =>
  projEntry (V c main_arg0) (V c main_arg3) (V c main_v15) (i 0) (i 1)

/-- The block indices at point t: row block t of the features, of the column and of the output; the one block of the
    weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's result at y, when the three loaded blocks are the stated rows of three arrays. -/
theorem point (A0 : S50000x128.Idx → EReal) (A1 : S128x128.Idx → EReal) (A2 : S50000x1.Idx → EReal)
    (x0 : Vec Ideal S5000x128 .f32) (x1 : Vec Ideal S128x128 .f32) (x2 : Vec Ideal S5000x1 .f32) (r : ℕ)
    (h0 : ∀ (z : S5000x128.Idx) (i : S50000x128.Idx), (i 0).val = r * 5000 + (z 0).val → (i 1).val = (z 1).val → x0 z = A0 i)
    (h1 : ∀ z : S128x128.Idx, x1 z = A1 z)
    (h2 : ∀ (z : S5000x1.Idx) (i : S50000x1.Idx), (i 0).val = r * 5000 + (z 0).val → (i 1).val = (z 1).val → x2 z = A2 i)
    (y : S5000x128.Idx) (i : S50000x128.Idx) (hi0 : (i 0).val = r * 5000 + (y 0).val) (hi1 : (i 1).val = (y 1).val) :
    k0_pay1 x0 x1 x2 y = projEntry A0 A1 A2 (i 0) (i 1) := by
  unfold projEntry
  obtain ⟨p, k, rfl⟩ : ∃ (p : Fin 5000) (k : Fin 128), y = ix2 p k := ⟨y 0, y 1, eq_ix2 y⟩
  rw [k0_pay1_apply]
  have hk : i 1 = k := Fin.ext hi1
  rw [hk]
  congr 1
  · refine Finset.sum_congr rfl fun j _ => ?_
    rw [h0 (ix2 p j) (ix2 (i 0) j) hi0 rfl, h1]
  · exact h2 (ix2 p (0 : Fin 1)) (ix2 (i 0) (0 : Fin 1)) hi0 rfl

/-- The feature block at point t is rows 5000·t … of the feature array. -/
theorem blk0_apply (c : Dev nD) (t : Fin cfg0.N) (z : S5000x128.Idx) (i : S50000x128.Idx)
    (h0 : (i 0).val = t.val * 5000 + (z 0).val) (h1 : (i 1).val = (z 1).val) :
    (iblk0 V c 0 t : Vec Ideal S5000x128 .f32) z = (V c main_arg0 : S50000x128.Idx → EReal) i := by
  obtain ⟨e0, e1, -⟩ := idx_facts t
  unfold iblk0
  rw [View.read_apply]
  show (V c main_arg0 : S50000x128.Idx → EReal) _ = V c main_arg0 i
  congr 1
  funext a
  apply Fin.ext
  match a with
  | ⟨0, _⟩ => show win0_0.index t (0 : Fin 2) * 5000 + 1 * (z 0).val = (i 0).val; rw [e0, h0]; omega
  | ⟨1, _⟩ => show win0_0.index t (1 : Fin 2) * 128 + 1 * (z 1).val = (i 1).val; rw [e1, h1]; omega

/-- The weight block at every point is the whole weight matrix. -/
theorem blk1_apply (c : Dev nD) (t : Fin cfg0.N) (z : S128x128.Idx) :
    (iblk0 V c 1 t : Vec Ideal S128x128 .f32) z = (V c main_arg3 : S128x128.Idx → EReal) z := by
  obtain ⟨-, -, e0, e1, -⟩ := idx_facts t
  unfold iblk0
  rw [View.read_apply]
  show (V c main_arg3 : S128x128.Idx → EReal) _ = V c main_arg3 z
  congr 1
  funext a
  apply Fin.ext
  match a with
  | ⟨0, _⟩ => show win0_1.index t (0 : Fin 2) * 128 + 1 * (z 0).val = (z 0).val; rw [e0]; omega
  | ⟨1, _⟩ => show win0_1.index t (1 : Fin 2) * 128 + 1 * (z 1).val = (z 1).val; rw [e1]; omega

/-- The column block at point t is rows 5000·t … of the scaling column. -/
theorem blk2_apply (c : Dev nD) (t : Fin cfg0.N) (z : S5000x1.Idx) (i : S50000x1.Idx)
    (h0 : (i 0).val = t.val * 5000 + (z 0).val) (h1 : (i 1).val = (z 1).val) :
    (iblk0 V c 2 t : Vec Ideal S5000x1 .f32) z = (V c main_v15 : S50000x1.Idx → EReal) i := by
  obtain ⟨-, -, -, -, e0, e1, -⟩ := idx_facts t
  unfold iblk0
  rw [View.read_apply]
  show (V c main_v15 : S50000x1.Idx → EReal) _ = V c main_v15 i
  congr 1
  funext a
  apply Fin.ext
  match a with
  | ⟨0, _⟩ => show win0_2.index t (0 : Fin 2) * 5000 + 1 * (z 0).val = (i 0).val; rw [e0, h0]; omega
  | ⟨1, _⟩ => show win0_2.index t (1 : Fin 2) * 1 + 1 * (z 1).val = (i 1).val; rw [e1, h1]; omega

/-- What point t writes back is block t of G. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  funext y
  show k0_pay1 (iblk0 V c 0 t) (iblk0 V c 1 t) (iblk0 V c 2 t) y = G V c (((cfg0.win 3).blk t).view.emb y)
  unfold G
  refine point (V c main_arg0) (V c main_arg3) (V c main_v15) (iblk0 V c 0 t) (iblk0 V c 1 t) (iblk0 V c 2 t) t.val
    (fun z i h0 h1 => blk0_apply V c t z i h0 h1) (fun z => blk1_apply V c t z) (fun z i h0 h1 => blk2_apply V c t z i h0 h1)
    y (((cfg0.win 3).blk t).view.emb y) ?_ ?_
  · show win0_3.index t (0 : Fin 2) * 5000 + 1 * (y 0).val = t.val * 5000 + (y 0).val; rw [e0]; omega
  · show win0_3.index t (1 : Fin 2) * 128 + 1 * (y 1).val = (y 1).val; rw [e1]; omega

/-- An index of the output array is in point t's block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- Row s lies in the block of point s / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 128 ≤ (i 1).val ∧ (i 1).val < win0_3.index t (1 : Fin 2) * 128 + 128; rw [e1]; omega

/-- The output array after the region is G. -/
theorem final (c : Dev nD) : (dat0 V c).arrAt 3 cfg0.N = G V c :=
  (dat0 V c).arrAt_eq_of_cover 3 (G V c) (fun t _ => flushed_eq V c t) cover

end Proj0

/-- Entry (s, k) of the output array after projection region 0. -/
theorem region0 (V : (c : Dev nD) → (b : Ref sig .tc) → Buf (Elt Ideal) ((c : Thread nD τ).loc b)) (c : Dev nD)
    (s : Fin 50000) (k : Fin 128) :
    (dat0 V c).arrAt 3 cfg0.N (ix2 s k)
      = projEntry (V c main_arg0) (V c main_arg3) (V c main_v15) s k := by
  rw [Proj0.final V c]
  rfl

end Cert.KernelSide

end
-- ==== Proof.RegionPostPoint.lean ====
/-
  The scale, bias and clamp body at one entry of its block.

  The body scales row p of a [5000, 128] block by the p-th entry of a [5000, 1] column, adds a [1, 128] bias row
  (entry k to column k) and takes the maximum with the float word 0.0.  So entry (p, k) of what it stores is
      max (a(p, k) · d(p, 0) + b(0, k)) 0.0 .
  The reshapes in the body keep the shape and are the identity.  Both bodies of this kind are the same term.
-/
import proofs.«147584_j43087111914333_2_alg».proof.Proof.Gen.KernelIdeal.Skeleton
import proofs.«147584_j43087111914333_2_alg».proof.Proof.LibKeepdims
import Idealize.ShloMosaic.Lib.ValueLayout
import proofs.«147584_j43087111914333_2_alg».proof.Proof.Spec

set_option maxRecDepth 16384

noncomputable section

namespace Cert.KernelSide

open Idealize.ShloMosaic Idealize.ShloMosaic.ValueIdx Cert.KernelIdeal Cert.KernelIdeal.Gen

/-- Entry (s, k) of the array A with row s scaled by the s-th entry of the column d, the bias row b added, clamped
    below at the float word 0.0. -/
def postEntry (A : S50000x128.Idx → EReal) (d : S50000x1.Idx → EReal) (b : S1x128.Idx → EReal)
    (s : Fin 50000) (k : Fin 128) : EReal :=
  max (A (ix2 s k) * d (ix2 s (0 : Fin 1)) + b (ix2 (0 : Fin 1) k)) Cert.Gcn.zeroF

/-- The scale, bias and clamp expression at entry (p, k). -/
theorem post_scale_apply (a : FVec Ideal S5000x128 .f32) (d : FVec Ideal S5000x1 .f32) (b : FVec Ideal S1x128 .f32)
    (p : Fin 5000) (k : Fin 128) :
    maximumf (addf (mulf (shapeCast S5000x128 a shapeCasts_S5000x128_S5000x128)
          (broadcastTo S5000x128 (shapeCast S5000x1 d shapeCasts_S5000x1_S5000x1) broadcasts_S5000x1_S5000x128))
        (broadcastTo S5000x128 (shapeCast S1x128 b shapeCasts_S1x128_S1x128) broadcasts_S1x128_S5000x128))
      (broadcast S5000x128 (Scalar.ofBits (F := Ideal) .f32 0x00000000#32)) (ix2 p k)
      = max (a (ix2 p k) * d (ix2 p (0 : Fin 1)) + b (ix2 (0 : Fin 1) k)) Cert.Gcn.zeroF := by
  rw [maximumf_apply, addf_apply, mulf_apply, shapeCast_self, shapeCast_self, shapeCast_self,
    broadcastTo_a1_ab_apply, broadcastTo_1b_ab_apply, broadcast_apply]
  rfl

/-- Entry (p, k) of what the first body of this kind stores. -/
theorem k1_pay1_apply (x0 : Vec Ideal S5000x128 .f32) (x1 : Vec Ideal S5000x1 .f32) (x2 : Vec Ideal S1x128 .f32)
    (p : Fin 5000) (k : Fin 128) :
    k1_pay1 x0 x1 x2 (ix2 p k) = max (x0 (ix2 p k) * x1 (ix2 p (0 : Fin 1)) + x2 (ix2 (0 : Fin 1) k)) Cert.Gcn.zeroF := by
  unfold k1_pay1
  exact post_scale_apply x0 x1 x2 p k

/-- Entry (p, k) of what the second body of this kind stores. -/
theorem k3_pay1_apply (x0 : Vec Ideal S5000x128 .f32) (x1 : Vec Ideal S5000x1 .f32) (x2 : Vec Ideal S1x128 .f32)
    (p : Fin 5000) (k : Fin 128) :
    k3_pay1 x0 x1 x2 (ix2 p k) = max (x0 (ix2 p k) * x1 (ix2 p (0 : Fin 1)) + x2 (ix2 (0 : Fin 1) k)) Cert.Gcn.zeroF := by
  unfold k3_pay1
  exact post_scale_apply x0 x1 x2 p k

end Cert.KernelSide

end
-- ==== Proof.RegionPost1.lean ====
/-
  What scale, bias and clamp region 1 leaves in its output array.

  The region walks 10 points; point t works on rows 5000·t … 5000·t + 4999.  It fetches those rows of the aggregated
  array and of the scaling column, the whole bias row, runs the body, and writes the 5000 result rows back to the same
  rows of the output array.  The ten row ranges tile the 50000 rows, so afterwards entry (s, k) of the output array is
      max (A(s, k) · d(s, 0) + b(0, k)) 0.0
  with A, d, b the arrays as the region finds them.
-/
import proofs.«147584_j43087111914333_2_alg».proof.Proof.Gen.KernelIdeal.Frame
import proofs.«147584_j43087111914333_2_alg».proof.Proof.RegionPostPoint
import Idealize.ShloMosaic.Lib.Pipeline.Value

set_option maxRecDepth 16384

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

namespace Post1

variable (V : (c : Dev nD) → (b : Ref sig .tc) → Buf (Elt Ideal) ((c : Thread nD τ).loc b))

theorem hz : (![0, 0] : Fin 2 → Nat) = fun _ => 0 := funext fun a => by fin_cases a <;> rfl

/-- The output array after the region, entry by entry, from the arrays the region finds. -/
def G (c : Dev nD) : S50000x128.Idx → EReal := fun i =>
  postEntry (V c main_v28) (V c main_v15) (V c main_v16) (i 0) (i 1)

/-- The block indices at point t: row block t of the aggregated array, of the column and of the output; the one
    block of the bias row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result at y, when the three loaded blocks are the stated rows of three arrays. -/
theorem point (A0 : S50000x128.Idx → EReal) (A1 : S50000x1.Idx → EReal) (A2 : S1x128.Idx → EReal)
    (x0 : Vec Ideal S5000x128 .f32) (x1 : Vec Ideal S5000x1 .f32) (x2 : Vec Ideal S1x128 .f32) (r : ℕ)
    (h0 : ∀ (z : S5000x128.Idx) (i : S50000x128.Idx), (i 0).val = r * 5000 + (z 0).val → (i 1).val = (z 1).val → x0 z = A0 i)
    (h1 : ∀ (z : S5000x1.Idx) (i : S50000x1.Idx), (i 0).val = r * 5000 + (z 0).val → (i 1).val = (z 1).val → x1 z = A1 i)
    (h2 : ∀ z : S1x128.Idx, x2 z = A2 z)
    (y : S5000x128.Idx) (i : S50000x128.Idx) (hi0 : (i 0).val = r * 5000 + (y 0).val) (hi1 : (i 1).val = (y 1).val) :
    k1_pay1 x0 x1 x2 y = postEntry A0 A1 A2 (i 0) (i 1) := by
  unfold postEntry
  obtain ⟨p, k, rfl⟩ : ∃ (p : Fin 5000) (k : Fin 128), y = ix2 p k := ⟨y 0, y 1, eq_ix2 y⟩
  rw [k1_pay1_apply]
  have hk : i 1 = k := Fin.ext hi1
  rw [hk, h0 (ix2 p k) (ix2 (i 0) k) hi0 rfl, h1 (ix2 p (0 : Fin 1)) (ix2 (i 0) (0 : Fin 1)) hi0 rfl, h2]

/-- The aggregated block at point t is rows 5000·t … of the aggregated array. -/
theorem blk0_apply (c : Dev nD) (t : Fin cfg1.N) (z : S5000x128.Idx) (i : S50000x128.Idx)
    (h0 : (i 0).val = t.val * 5000 + (z 0).val) (h1 : (i 1).val = (z 1).val) :
    (iblk1 V c 0 t : Vec Ideal S5000x128 .f32) z = (V c main_v28 : S50000x128.Idx → EReal) i := by
  obtain ⟨e0, e1, -⟩ := idx_facts t
  unfold iblk1
  rw [View.read_apply]
  show (V c main_v28 : S50000x128.Idx → EReal) _ = V c main_v28 i
  congr 1
  funext a
  apply Fin.ext
  match a with
  | ⟨0, _⟩ => show win1_0.index t (0 : Fin 2) * 5000 + 1 * (z 0).val = (i 0).val; rw [e0, h0]; omega
  | ⟨1, _⟩ => show win1_0.index t (1 : Fin 2) * 128 + 1 * (z 1).val = (i 1).val; rw [e1, h1]; omega

/-- The column block at point t is rows 5000·t … of the scaling column. -/
theorem blk1_apply (c : Dev nD) (t : Fin cfg1.N) (z : S5000x1.Idx) (i : S50000x1.Idx)
    (h0 : (i 0).val = t.val * 5000 + (z 0).val) (h1 : (i 1).val = (z 1).val) :
    (iblk1 V c 1 t : Vec Ideal S5000x1 .f32) z = (V c main_v15 : S50000x1.Idx → EReal) i := by
  obtain ⟨-, -, e0, e1, -⟩ := idx_facts t
  unfold iblk1
  rw [View.read_apply]
  show (V c main_v15 : S50000x1.Idx → EReal) _ = V c main_v15 i
  congr 1
  funext a
  apply Fin.ext
  match a with
  | ⟨0, _⟩ => show win1_1.index t (0 : Fin 2) * 5000 + 1 * (z 0).val = (i 0).val; rw [e0, h0]; omega
  | ⟨1, _⟩ => show win1_1.index t (1 : Fin 2) * 1 + 1 * (z 1).val = (i 1).val; rw [e1, h1]; omega

/-- The bias block at every point is the whole bias row. -/
theorem blk2_apply (c : Dev nD) (t : Fin cfg1.N) (z : S1x128.Idx) :
    (iblk1 V c 2 t : Vec Ideal S1x128 .f32) z = (V c main_v16 : S1x128.Idx → EReal) z := by
  obtain ⟨-, -, -, -, e0, e1, -⟩ := idx_facts t
  unfold iblk1
  rw [View.read_apply]
  show (V c main_v16 : S1x128.Idx → EReal) _ = V c main_v16 z
  congr 1
  funext a
  apply Fin.ext
  match a with
  | ⟨0, _⟩ => show win1_2.index t (0 : Fin 2) * 1 + 1 * (z 0).val = (z 0).val; rw [e0]; omega
  | ⟨1, _⟩ => show win1_2.index t (1 : Fin 2) * 128 + 1 * (z 1).val = (z 1).val; rw [e1]; omega

/-- What point t writes back is block t of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  obtain ⟨-, -, -, -, -, -, e0, e1⟩ := idx_facts t
  funext y
  show k1_pay1 (iblk1 V c 0 t) (iblk1 V c 1 t) (iblk1 V c 2 t) y = G V c (((cfg1.win 3).blk t).view.emb y)
  unfold G
  refine point (V c main_v28) (V c main_v15) (V c main_v16) (iblk1 V c 0 t) (iblk1 V c 1 t) (iblk1 V c 2 t) t.val
    (fun z i h0 h1 => blk0_apply V c t z i h0 h1) (fun z i h0 h1 => blk1_apply V c t z i h0 h1) (fun z => blk2_apply V c t z)
    y (((cfg1.win 3).blk t).view.emb y) ?_ ?_
  · show win1_3.index t (0 : Fin 2) * 5000 + 1 * (y 0).val = t.val * 5000 + (y 0).val; rw [e0]; omega
  · show win1_3.index t (1 : Fin 2) * 128 + 1 * (y 1).val = (y 1).val; rw [e1]; omega

/-- An index of the output array is in point t's block iff each coordinate is in the block's range. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

/-- Row s lies in the block of point s / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e0, e1⟩ := idx_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e0, ht]; omega
  | ⟨1, _⟩ => show win1_3.index t (1 : Fin 2) * 128 ≤ (i 1).val ∧ (i 1).val < win1_3.index t (1 : Fin 2) * 128 + 128; rw [e1]; omega

/-- The output array after the region is G. -/
theorem final (c : Dev nD) : (dat1 V c).arrAt 3 cfg1.N = G V c :=
  (dat1 V c).arrAt_eq_of_cover 3 (G V c) (fun t _ => flushed_eq V c t) cover

end Post1

/-- Entry (s, k) of the output array after scale, bias and clamp region 1. -/
theorem region1 (V : (c : Dev nD) → (b : Ref sig .tc) → Buf (Elt Ideal) ((c : Thread nD τ).loc b)) (c : Dev nD)
    (s : Fin 50000) (k : Fin 128) :
    (dat1 V c).arrAt 3 cfg1.N (ix2 s k)
      = postEntry (V c main_v28) (V c main_v15) (V c main_v16) s k := by
  rw [Post1.final V c]
  rfl

end Cert.KernelSide

end
-- ==== Proof.RegionProj2.lean ====
/-
  What projection region 2 leaves in its output array.

  The region walks 10 points; point t works on rows 5000·t … 5000·t + 4999.  It fetches those rows of the feature
  array and of the scaling column, the whole weight matrix, runs the body, and writes the 5000 result rows back to
  the same rows of the output array.  The ten row ranges tile the 50000 rows, so afterwards entry (s, k) of the
  output array is
      (Σ_j  X(s, j) · W(j, k)) · d(s, 0)
  with X, W, d the arrays as the region finds them.
  (The body first passes the feature block through a reshape that keeps its shape.)
-/
import proofs.«147584_j43087111914333_2_alg».proof.Proof.Gen.KernelIdeal.Frame
import proofs.«147584_j43087111914333_2_alg».proof.Proof.RegionProjPoint
import Idealize.ShloMosaic.Lib.Pipeline.Value

set_option maxRecDepth 16384

noncomputable section

open scoped BigOperators

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

namespace Proj2

variable (V : (c : Dev nD) → (b : Ref sig .tc) → Buf (Elt Ideal) ((c : Thread nD τ).loc b))

theorem hz : (![0, 0] : Fin 2 → Nat) = fun _ => 0 := funext fun a => by fin_cases a <;> rfl

/-- The output array after the region, entry by entry, from the arrays the region finds. -/
def G (c : Dev nD) : S50000x128.Idx → EReal := fun i =>
  projEntry (V c main_v29) (V c main_arg5) (V c main_v15) (i 0) (i 1)

/-- The block indices at point t: row block t of the features, of the column and of the output; the one block of the
    weights. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's result at y, when the three loaded blocks are the stated rows of three arrays. -/
theorem point (A0 : S50000x128.Idx → EReal) (A1 : S128x128.Idx → EReal) (A2 : S50000x1.Idx → EReal)
    (x0 : Vec Ideal S5000x128 .f32) (x1 : Vec Ideal S128x128 .f32) (x2 : Vec Ideal S5000x1 .f32) (r : ℕ)
    (h0 : ∀ (z : S5000x128.Idx) (i : S50000x128.Idx), (i 0).val = r * 5000 + (z 0).val → (i 1).val = (z 1).val → x0 z = A0 i)
    (h1 : ∀ z : S128x128.Idx, x1 z = A1 z)
    (h2 : ∀ (z : S5000x1.Idx) (i : S50000x1.Idx), (i 0).val = r * 5000 + (z 0).val → (i 1).val = (z 1).val → x2 z = A2 i)
    (y : S5000x128.Idx) (i : S50000x128.Idx) (hi0 : (i 0).val = r * 5000 + (y 0).val) (hi1 : (i 1).val = (y 1).val) :
    k2_pay1 x0 x1 x2 y = projEntry A0 A1 A2 (i 0) (i 1) := by
  unfold projEntry
  obtain ⟨p, k, rfl⟩ : ∃ (p : Fin 5000) (k : Fin 128), y = ix2 p k := ⟨y 0, y 1, eq_ix2 y⟩
  rw [k2_pay1_apply]
  have hk : i 1 = k := Fin.ext hi1
  rw [hk]
  congr 1
  · refine Finset.sum_congr rfl fun j _ => ?_
    rw [h0 (ix2 p j) (ix2 (i 0) j) hi0 rfl, h1]
  · exact h2 (ix2 p (0 : Fin 1)) (ix2 (i 0) (0 : Fin 1)) hi0 rfl

/-- The feature block at point t is rows 5000·t … of the feature array. -/
theorem blk0_apply (c : Dev nD) (t : Fin cfg2.N) (z : S5000x128.Idx) (i : S50000x128.Idx)
    (h0 : (i 0).val = t.val * 5000 + (z 0).val) (h1 : (i 1).val = (z 1).val) :
    (iblk2 V c 0 t : Vec Ideal S5000x128 .f32) z = (V c main_v29 : S50000x128.Idx → EReal) i := by
  obtain ⟨e0, e1, -⟩ := idx_facts t
  unfold iblk2
  rw [View.read_apply]
  show (V c main_v29 : S50000x128.Idx → EReal) _ = V c main_v29 i
  congr 1
  funext a
  apply Fin.ext
  match a with
  | ⟨0, _⟩ => show win2_0.index t (0 : Fin 2) * 5000 + 1 * (z 0).val = (i 0).val; rw [e0, h0]; omega
  | ⟨1, _⟩ => show win2_0.index t (1 : Fin 2) * 128 + 1 * (z 1).val = (i 1).val; rw [e1, h1]; omega

/-- The weight block at every point is the whole weight matrix. -/
theorem blk1_apply (c : Dev nD) (t : Fin cfg2.N) (z : S128x128.Idx) :
    (iblk2 V c 1 t : Vec Ideal S128x128 .f32) z = (V c main_arg5 : S128x128.Idx → EReal) z := by
  obtain ⟨-, -, e0, e1, -⟩ := idx_facts t
  unfold iblk2
  rw [View.read_apply]
  show (V c main_arg5 : S128x128.Idx → EReal) _ = V c main_arg5 z
  congr 1
  funext a
  apply Fin.ext
  match a with
  | ⟨0, _⟩ => show win2_1.index t (0 : Fin 2) * 128 + 1 * (z 0).val = (z 0).val; rw [e0]; omega
  | ⟨1, _⟩ => show win2_1.index t (1 : Fin 2) * 128 + 1 * (z 1).val = (z 1).val; rw [e1]; omega

/-- The column block at point t is rows 5000·t … of the scaling column. -/
theorem blk2_apply (c : Dev nD) (t : Fin cfg2.N) (z : S5000x1.Idx) (i : S50000x1.Idx)
    (h0 : (i 0).val = t.val * 5000 + (z 0).val) (h1 : (i 1).val = (z 1).val) :
    (iblk2 V c 2 t : Vec Ideal S5000x1 .f32) z = (V c main_v15 : S50000x1.Idx → EReal) i := by
  obtain ⟨-, -, -, -, e0, e1, -⟩ := idx_facts t
  unfold iblk2
  rw [View.read_apply]
  show (V c main_v15 : S50000x1.Idx → EReal) _ = V c main_v15 i
  congr 1
  funext a
  apply Fin.ext
  match a with
  | ⟨0, _⟩ => show win2_2.index t (0 : Fin 2) * 5000 + 1 * (z 0).val = (i 0).val; rw [e0, h0]; omega
  | ⟨1, _⟩ => show win2_2.index t (1 : Fin 2) * 1 + 1 * (z 1).val = (i 1).val; rw [e1, h1]; omega

/-- What point t writes back is block t of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  funext y
  show k2_pay1 (iblk2 V c 0 t) (iblk2 V c 1 t) (iblk2 V c 2 t) y = G V c (((cfg2.win 3).blk t).view.emb y)
  unfold G
  refine point (V c main_v29) (V c main_arg5) (V c main_v15) (iblk2 V c 0 t) (iblk2 V c 1 t) (iblk2 V c 2 t) t.val
    (fun z i h0 h1 => blk0_apply V c t z i h0 h1) (fun z => blk1_apply V c t z) (fun z i h0 h1 => blk2_apply V c t z i h0 h1)
    y (((cfg2.win 3).blk t).view.emb y) ?_ ?_
  · show win2_3.index t (0 : Fin 2) * 5000 + 1 * (y 0).val = t.val * 5000 + (y 0).val; rw [e0]; omega
  · show win2_3.index t (1 : Fin 2) * 128 + 1 * (y 1).val = (y 1).val; rw [e1]; omega

/-- An index of the output array is in point t's block iff each coordinate is in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v30).slice (win2_3.rect t)).set ↔ _
  rw [View.set_slice_whole, Rect.mem_set_unit]
  exact Iff.rfl

/-- Row s lies in the block of point s / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, e0, e1⟩ := idx_facts t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- The output array after the region is G. -/
theorem final (c : Dev nD) : (dat2 V c).arrAt 3 cfg2.N = G V c :=
  (dat2 V c).arrAt_eq_of_cover 3 (G V c) (fun t _ => flushed_eq V c t) cover

end Proj2

/-- Entry (s, k) of the output array after projection region 2. -/
theorem region2 (V : (c : Dev nD) → (b : Ref sig .tc) → Buf (Elt Ideal) ((c : Thread nD τ).loc b)) (c : Dev nD)
    (s : Fin 50000) (k : Fin 128) :
    (dat2 V c).arrAt 3 cfg2.N (ix2 s k)
      = projEntry (V c main_v29) (V c main_arg5) (V c main_v15) s k := by
  rw [Proj2.final V c]
  rfl

end Cert.KernelSide

end
-- ==== Proof.RegionPost3.lean ====
/-
  What scale, bias and clamp region 3 leaves in its output array.

  The region walks 10 points; point t works on rows 5000·t … 5000·t + 4999.  It fetches those rows of the aggregated
  array and of the scaling column, the whole bias row, runs the body, and writes the 5000 result rows back to the same
  rows of the output array.  The ten row ranges tile the 50000 rows, so afterwards entry (s, k) of the output array is
      max (A(s, k) · d(s, 0) + b(0, k)) 0.0
  with A, d, b the arrays as the region finds them.
-/
import proofs.«147584_j43087111914333_2_alg».proof.Proof.Gen.KernelIdeal.Frame
import proofs.«147584_j43087111914333_2_alg».proof.Proof.RegionPostPoint
import Idealize.ShloMosaic.Lib.Pipeline.Value

set_option maxRecDepth 16384

noncomputable section

namespace Cert.KernelSide

open Idealize.ShloMosaic Idealize.ShloMosaic.TcCoe Idealize.ShloMosaic.ValueIdx Idealize.SL.Sem
open Idealize.ShloMosaic.Pipeline (Dat)
open Cert.KernelIdeal Cert.KernelIdeal.Gen

namespace Post3

variable (V : (c : Dev nD) → (b : Ref sig .tc) → Buf (Elt Ideal) ((c : Thread nD τ).loc b))

theorem hz : (![0, 0] : Fin 2 → Nat) = fun _ => 0 := funext fun a => by fin_cases a <;> rfl

/-- The output array after the region, entry by entry, from the arrays the region finds. -/
def G (c : Dev nD) : S50000x128.Idx → EReal := fun i =>
  postEntry (V c main_v40) (V c main_v15) (V c main_v17) (i 0) (i 1)

/-- The block indices at point t: row block t of the aggregated array, of the column and of the output; the one
    block of the bias row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's result at y, when the three loaded blocks are the stated rows of three arrays. -/
theorem point (A0 : S50000x128.Idx → EReal) (A1 : S50000x1.Idx → EReal) (A2 : S1x128.Idx → EReal)
    (x0 : Vec Ideal S5000x128 .f32) (x1 : Vec Ideal S5000x1 .f32) (x2 : Vec Ideal S1x128 .f32) (r : ℕ)
    (h0 : ∀ (z : S5000x128.Idx) (i : S50000x128.Idx), (i 0).val = r * 5000 + (z 0).val → (i 1).val = (z 1).val → x0 z = A0 i)
    (h1 : ∀ (z : S5000x1.Idx) (i : S50000x1.Idx), (i 0).val = r * 5000 + (z 0).val → (i 1).val = (z 1).val → x1 z = A1 i)
    (h2 : ∀ z : S1x128.Idx, x2 z = A2 z)
    (y : S5000x128.Idx) (i : S50000x128.Idx) (hi0 : (i 0).val = r * 5000 + (y 0).val) (hi1 : (i 1).val = (y 1).val) :
    k3_pay1 x0 x1 x2 y = postEntry A0 A1 A2 (i 0) (i 1) := by
  unfold postEntry
  obtain ⟨p, k, rfl⟩ : ∃ (p : Fin 5000) (k : Fin 128), y = ix2 p k := ⟨y 0, y 1, eq_ix2 y⟩
  rw [k3_pay1_apply]
  have hk : i 1 = k := Fin.ext hi1
  rw [hk, h0 (ix2 p k) (ix2 (i 0) k) hi0 rfl, h1 (ix2 p (0 : Fin 1)) (ix2 (i 0) (0 : Fin 1)) hi0 rfl, h2]

/-- The aggregated block at point t is rows 5000·t … of the aggregated array. -/
theorem blk0_apply (c : Dev nD) (t : Fin cfg3.N) (z : S5000x128.Idx) (i : S50000x128.Idx)
    (h0 : (i 0).val = t.val * 5000 + (z 0).val) (h1 : (i 1).val = (z 1).val) :
    (iblk3 V c 0 t : Vec Ideal S5000x128 .f32) z = (V c main_v40 : S50000x128.Idx → EReal) i := by
  obtain ⟨e0, e1, -⟩ := idx_facts t
  unfold iblk3
  rw [View.read_apply]
  show (V c main_v40 : S50000x128.Idx → EReal) _ = V c main_v40 i
  congr 1
  funext a
  apply Fin.ext
  match a with
  | ⟨0, _⟩ => show win3_0.index t (0 : Fin 2) * 5000 + 1 * (z 0).val = (i 0).val; rw [e0, h0]; omega
  | ⟨1, _⟩ => show win3_0.index t (1 : Fin 2) * 128 + 1 * (z 1).val = (i 1).val; rw [e1, h1]; omega

/-- The column block at point t is rows 5000·t … of the scaling column. -/
theorem blk1_apply (c : Dev nD) (t : Fin cfg3.N) (z : S5000x1.Idx) (i : S50000x1.Idx)
    (h0 : (i 0).val = t.val * 5000 + (z 0).val) (h1 : (i 1).val = (z 1).val) :
    (iblk3 V c 1 t : Vec Ideal S5000x1 .f32) z = (V c main_v15 : S50000x1.Idx → EReal) i := by
  obtain ⟨-, -, e0, e1, -⟩ := idx_facts t
  unfold iblk3
  rw [View.read_apply]
  show (V c main_v15 : S50000x1.Idx → EReal) _ = V c main_v15 i
  congr 1
  funext a
  apply Fin.ext
  match a with
  | ⟨0, _⟩ => show win3_1.index t (0 : Fin 2) * 5000 + 1 * (z 0).val = (i 0).val; rw [e0, h0]; omega
  | ⟨1, _⟩ => show win3_1.index t (1 : Fin 2) * 1 + 1 * (z 1).val = (i 1).val; rw [e1, h1]; omega

/-- The bias block at every point is the whole bias row. -/
theorem blk2_apply (c : Dev nD) (t : Fin cfg3.N) (z : S1x128.Idx) :
    (iblk3 V c 2 t : Vec Ideal S1x128 .f32) z = (V c main_v17 : S1x128.Idx → EReal) z := by
  obtain ⟨-, -, -, -, e0, e1, -⟩ := idx_facts t
  unfold iblk3
  rw [View.read_apply]
  show (V c main_v17 : S1x128.Idx → EReal) _ = V c main_v17 z
  congr 1
  funext a
  apply Fin.ext
  match a with
  | ⟨0, _⟩ => show win3_2.index t (0 : Fin 2) * 1 + 1 * (z 0).val = (z 0).val; rw [e0]; omega
  | ⟨1, _⟩ => show win3_2.index t (1 : Fin 2) * 128 + 1 * (z 1).val = (z 1).val; rw [e1]; omega

/-- What point t writes back is block t of G. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S1x128) hz]
  obtain ⟨-, -, -, -, -, -, e0, e1⟩ := idx_facts t
  funext y
  show k3_pay1 (iblk3 V c 0 t) (iblk3 V c 1 t) (iblk3 V c 2 t) y = G V c (((cfg3.win 3).blk t).view.emb y)
  unfold G
  refine point (V c main_v40) (V c main_v15) (V c main_v17) (iblk3 V c 0 t) (iblk3 V c 1 t) (iblk3 V c 2 t) t.val
    (fun z i h0 h1 => blk0_apply V c t z i h0 h1) (fun z i h0 h1 => blk1_apply V c t z i h0 h1) (fun z => blk2_apply V c t z)
    y (((cfg3.win 3).blk t).view.emb y) ?_ ?_
  · show win3_3.index t (0 : Fin 2) * 5000 + 1 * (y 0).val = t.val * 5000 + (y 0).val; rw [e0]; omega
  · show win3_3.index t (1 : Fin 2) * 128 + 1 * (y 1).val = (y 1).val; rw [e1]; omega

/-- An index of the output array is in point t's block iff each coordinate is in the block's range. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v41).slice (win3_3.rect t)).set ↔ _
  rw [View.set_slice_whole, Rect.mem_set_unit]
  exact Iff.rfl

/-- Row s lies in the block of point s / 5000. -/
theorem cover (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e0, e1⟩ := idx_facts t
  have ht : t.val = (i 0).val / 5000 := rfl
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; rw [e0, ht]; omega
  | ⟨1, _⟩ => show win3_3.index t (1 : Fin 2) * 128 ≤ (i 1).val ∧ (i 1).val < win3_3.index t (1 : Fin 2) * 128 + 128; rw [e1]; omega

/-- The output array after the region is G. -/
theorem final (c : Dev nD) : (dat3 V c).arrAt 3 cfg3.N = G V c :=
  (dat3 V c).arrAt_eq_of_cover 3 (G V c) (fun t _ => flushed_eq V c t) cover

end Post3

/-- Entry (s, k) of the output array after scale, bias and clamp region 3. -/
theorem region3 (V : (c : Dev nD) → (b : Ref sig .tc) → Buf (Elt Ideal) ((c : Thread nD τ).loc b)) (c : Dev nD)
    (s : Fin 50000) (k : Fin 128) :
    (dat3 V c).arrAt 3 cfg3.N (ix2 s k)
      = postEntry (V c main_v40) (V c main_v15) (V c main_v17) s k := by
  rw [Post3.final V c]
  rfl

end Cert.KernelSide

end
-- ==== Proof.LibConcatDot.lean ====
/-
  Two blocks set side by side along the lanes, multiplied by a matrix.

  For x₁, x₂ : [A, 128] and r : [256, B], row a of the side-by-side array [x₁ | x₂] : [A, 256] is row a of x₁
  followed by row a of x₂. Its product with r therefore splits: the sum over the 256 lanes is the sum over the
  first 128 lanes (x₁ against the upper 128 rows of r) plus the sum over the last 128 (x₂ against the lower 128
  rows of r). Generic in the row count A, the column count B and the proof that the shapes concatenate.
-/
import Idealize.ShloMosaic.Lib.ValueIdx
import Idealize.ShloMosaic.Lib.Pipeline.Value

noncomputable section

open scoped BigOperators

namespace Idealize.ShloMosaic.ConcatDot

open Idealize.ShloMosaic Idealize.ShloMosaic.ValueIdx

variable {α : Type} {A : Nat}

/-- A lane below 128 of [x₁ | x₂] reads x₁ at that lane. -/
theorem concat_lanes_left (x₁ x₂ : (⟨2, ![A, 128]⟩ : Shape).Idx → α)
    (h : Shape.Concatenates [(⟨2, ![A, 128]⟩ : Shape), (⟨2, ![A, 128]⟩ : Shape)] (⟨2, ![A, 256]⟩ : Shape) 1)
    (a : Fin A) (j : Fin 128) :
    concatenate (⟨2, ![A, 256]⟩ : Shape) 1 [⟨(⟨2, ![A, 128]⟩ : Shape), x₁⟩, ⟨(⟨2, ![A, 128]⟩ : Shape), x₂⟩] h
        (ix2 a (Fin.castAdd 128 j : Fin 256)) = x₁ (ix2 a j) :=
  concatenate_pair_apply_left (t := ⟨2, ![A, 256]⟩) (s₁ := ⟨2, ![A, 128]⟩) (s₂ := ⟨2, ![A, 128]⟩) 1 x₁ x₂ h _ rfl _
    (fun b => by
      match b with
      | ⟨0, _⟩ => rfl
      | ⟨1, _⟩ => rfl)

/-- A lane from 128 on of [x₁ | x₂] reads x₂ at that lane, 128 less. -/
theorem concat_lanes_right (x₁ x₂ : (⟨2, ![A, 128]⟩ : Shape).Idx → α)
    (h : Shape.Concatenates [(⟨2, ![A, 128]⟩ : Shape), (⟨2, ![A, 128]⟩ : Shape)] (⟨2, ![A, 256]⟩ : Shape) 1)
    (a : Fin A) (j : Fin 128) :
    concatenate (⟨2, ![A, 256]⟩ : Shape) 1 [⟨(⟨2, ![A, 128]⟩ : Shape), x₁⟩, ⟨(⟨2, ![A, 128]⟩ : Shape), x₂⟩] h
        (ix2 a (Fin.natAdd 128 j : Fin 256)) = x₂ (ix2 a j) :=
  concatenate_pair_apply_right (t := ⟨2, ![A, 256]⟩) (s₁ := ⟨2, ![A, 128]⟩) (s₂ := ⟨2, ![A, 128]⟩) 1 x₁ x₂ h _ rfl rfl _
    (fun b hb => by
      match b with
      | ⟨0, _⟩ => rfl
      | ⟨1, _⟩ => exact absurd rfl hb)
    (by show j.val + 128 = 128 + j.val; omega)

/-- Row a of [x₁ | x₂] against column b of r: the 256-long sum is the two 128-long sums, x₁ against the upper
    half of r and x₂ against the lower half. -/
theorem concat_dot {B : Nat} (x₁ x₂ : (⟨2, ![A, 128]⟩ : Shape).Idx → EReal)
    (h : Shape.Concatenates [(⟨2, ![A, 128]⟩ : Shape), (⟨2, ![A, 128]⟩ : Shape)] (⟨2, ![A, 256]⟩ : Shape) 1)
    (r : (⟨2, ![256, B]⟩ : Shape).Idx → EReal) (a : Fin A) (b : Fin B) :
    ∑ j : Fin 256, concatenate (⟨2, ![A, 256]⟩ : Shape) 1
        [⟨(⟨2, ![A, 128]⟩ : Shape), x₁⟩, ⟨(⟨2, ![A, 128]⟩ : Shape), x₂⟩] h (ix2 a j) * r (ix2 j b)
      = (∑ j : Fin 128, x₁ (ix2 a j) * r (ix2 (Fin.castAdd 128 j : Fin 256) b))
        + ∑ j : Fin 128, x₂ (ix2 a j) * r (ix2 (Fin.natAdd 128 j : Fin 256) b) := by
  rw [show (∑ j : Fin 256, concatenate (⟨2, ![A, 256]⟩ : Shape) 1
        [⟨(⟨2, ![A, 128]⟩ : Shape), x₁⟩, ⟨(⟨2, ![A, 128]⟩ : Shape), x₂⟩] h (ix2 a j) * r (ix2 j b))
      = ∑ j : Fin (128 + 128), concatenate (⟨2, ![A, 256]⟩ : Shape) 1
        [⟨(⟨2, ![A, 128]⟩ : Shape), x₁⟩, ⟨(⟨2, ![A, 128]⟩ : Shape), x₂⟩] h (ix2 a j) * r (ix2 j b) from rfl,
    Fin.sum_univ_add]
  congr 1
  · exact Finset.sum_congr rfl fun j _ => by rw [concat_lanes_left x₁ x₂ h a j]
  · exact Finset.sum_congr rfl fun j _ => by rw [concat_lanes_right x₁ x₂ h a j]

end Idealize.ShloMosaic.ConcatDot

end
-- ==== Proof.RegionHead4Pay.lean ====
/-
  The scoring head's stored value, read at one row.

  At a grid point the head kernel holds two fetched [8000,128] blocks (the left and right rows of 8000 pairs), the
  [256,128] matrix, a [1,128] bias row, a [128,1] column and a [1,1] bias. It sets the two blocks side by side
  along the lanes, multiplies by the matrix, adds the bias row, takes the maximum with zero, multiplies by the
  column and adds the last bias. Row p of what it stores is therefore the scoring head of row p of the left block
  and row p of the right block: the 256-long contraction splits into the two 128-long ones over the upper and the
  lower half of the matrix. A change of float format is the identity over the extended reals.
-/
import proofs.«147584_j43087111914333_2_alg».proof.Proof.Gen.KernelIdeal.Frame
import proofs.«147584_j43087111914333_2_alg».proof.Proof.Spec
import proofs.«147584_j43087111914333_2_alg».proof.Proof.LibMatmul
import proofs.«147584_j43087111914333_2_alg».proof.Proof.LibConcatDot
import Idealize.ShloMosaic.Lib.ValueLayout

set_option maxRecDepth 16384

noncomputable section

open scoped BigOperators

namespace Cert.KernelSide.Head4

open Idealize.ShloMosaic Idealize.ShloMosaic.ValueIdx Cert.KernelIdeal Cert.KernelIdeal.Gen

/-- The first product: row p of the two blocks side by side against the 256-row matrix, column k. -/
theorem hidden_apply (x₁ x₂ : FVec Ideal S8000x128 .bf16) (w : FVec Ideal S256x128 .f32) (p : Fin 8000) (k : Fin 128) :
    matmul dot_S8000x256_S256x128_S8000x128_1_0_0_1_n_n none
        (concatenate S8000x256 1 [⟨S8000x128, x₁⟩, ⟨S8000x128, x₂⟩] concatenates_S8000x128_S8000x128_S8000x256_d1)
        (truncf .bf16 w bitsLt_bf16_f32) (constant S8000x128 .f32 0x00000000#32) (ix2 p k)
      = (∑ j : Fin 128, x₁ (ix2 p j) * w (ix2 (Fin.castAdd 128 j : Fin 256) k))
        + ∑ j : Fin 128, x₂ (ix2 p j) * w (ix2 (Fin.natAdd 128 j : Fin 256) k) :=
  (MatmulIdx.matmul_zero_ix2 dot_S8000x256_S256x128_S8000x128_1_0_0_1_n_n_wf none
      (concatenate S8000x256 1 [⟨S8000x128, x₁⟩, ⟨S8000x128, x₂⟩] concatenates_S8000x128_S8000x128_S8000x256_d1)
      (truncf .bf16 w bitsLt_bf16_f32) p k).trans
    (ConcatDot.concat_dot x₁ x₂ concatenates_S8000x128_S8000x128_S8000x256_d1 w p k)

/-- The second product: row p of a [8000,128] block against the one column of a [128,1] matrix. -/
theorem score_apply (h : FVec Ideal S8000x128 .bf16) (w : FVec Ideal S128x1 .f32) (p : Fin 8000) :
    matmul dot_S8000x128_S128x1_S8000x1_1_0_0_1_n_n none h (truncf .bf16 w bitsLt_bf16_f32)
        (constant S8000x1 .f32 0x00000000#32) (ix2 p (0 : Fin 1))
      = ∑ k : Fin 128, h (ix2 p k) * w (ix2 k (0 : Fin 1)) :=
  MatmulIdx.matmul_zero_ix2 dot_S8000x128_S128x1_S8000x1_1_0_0_1_n_n_wf none h (truncf .bf16 w bitsLt_bf16_f32) p 0

/-- The head kernel's stored value at row p of its block is the scoring head of row p of the two fetched blocks. -/
theorem pay_apply (v0 v2 : Vec Ideal S8000x128 .bf16) (v5 : Vec Ideal S256x128 .f32) (v8 : Vec Ideal S1x128 .f32)
    (v15 : Vec Ideal S128x1 .f32) (v18 : Vec Ideal S1x1 .f32) (p : Fin 8000) :
    k4_pay1 (F := Ideal) v0 v2 v5 v8 v15 v18 (ix2 p (0 : Fin 1))
      = Cert.Gcn.head (fun j => v0 (ix2 p j)) (fun j => v2 (ix2 p j)) (fun j k => v5 (ix2 j k))
          (fun k => v8 (ix2 (0 : Fin 1) k)) (fun k => v15 (ix2 k (0 : Fin 1))) (v18 (ix2 (0 : Fin 1) (0 : Fin 1))) := by
  unfold k4_pay1
  simp only [shapeCast_self]
  unfold Cert.Gcn.head
  refine congrArg₂ (· + ·) ?_ ?_
  · refine (score_apply _ v15 p).trans ?_
    refine Finset.sum_congr rfl fun k _ => ?_
    refine congrArg (· * v15 (ix2 k (0 : Fin 1))) ?_
    show max (_ + _) _ = max _ _
    refine congrArg₂ max (congrArg₂ (· + ·) ((hidden_apply (shapeCast S8000x128 v0 shapeCasts_S8000x128_S8000x128)
      (shapeCast S8000x128 v2 shapeCasts_S8000x128_S8000x128) v5 p k).trans (by rw [shapeCast_self v0, shapeCast_self v2])) ?_) rfl
    exact broadcastTo_1b_ab_apply v8 broadcasts_S1x128_S8000x128 p k
  · exact broadcastTo_1b_ab_apply v18 broadcasts_S1x1_S8000x1 p (0 : Fin 1)

end Cert.KernelSide.Head4

end
-- ==== Proof.RegionHead4.lean ====
/-
  The scoring head over all 200000 pairs, from its blocks.

  The grid has 25 points. At point t the two fetched-row arrays ([200000,128]) and the score array ([200000,1])
  are cut into blocks of 8000 rows — point t holds rows 8000 t … 8000 t + 7999 — while the [256,128] matrix, the
  [1,128] bias row, the [128,1] column and the [1,1] bias are whole at every point. Row q of what point t stores
  is the scoring head of row 8000 t + q of the two arrays, so what point t writes back is block t of one function
  of the arrays: the score of every pair. Pair p lies in the block of point p / 8000, the blocks cover the score
  array, and the array ends holding that function.
-/
import proofs.«147584_j43087111914333_2_alg».proof.Proof.RegionHead4Pay
import Idealize.ShloMosaic.Lib.Pipeline.Value

set_option maxRecDepth 16384

noncomputable section

open scoped BigOperators

namespace Cert.KernelSide.Head4

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The zero offsets, spelt as a constant function. -/
theorem hz : (![0, 0] : Fin 2 → Nat) = fun _ => 0 := funext fun a => by fin_cases a <;> rfl

/-- Where each window's block sits at point t: the three long arrays move with t along the rows, the four small
    ones stay at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The score of every pair, as one function of the arrays the region finds. -/
def headArr (c : Dev nD) : S200000x1.Idx → EReal := fun i =>
  Cert.Gcn.head (fun j => V c main_v51 (ix2 (i 0) j)) (fun j => V c main_v60 (ix2 (i 0) j))
    (fun j k => V c main_arg7 (ix2 j k)) (fun k => V c main_v61 (ix2 (0 : Fin 1) k))
    (fun k => V c main_arg9 (ix2 k (0 : Fin 1))) (V c main_v62 (ix2 (0 : Fin 1) (0 : Fin 1)))

/-- Entry (q, j) of the left block at point t is entry (8000 t + q, j) of the left array. -/
theorem emb0 (t : Fin cfg4.N) (q : Fin 8000) (j : Fin 128) (P : Fin 200000) (hP : P.val = 8000 * t.val + q.val) :
    ((cfg4.win 0).blk t).view.emb (ix2 q j) = (ix2 P j : S200000x128.Idx) := by
  obtain ⟨e0, e1, -⟩ := idx_facts t
  funext a; apply Fin.ext
  match a with
  | ⟨0, _⟩ => show win4_0.index t (0 : Fin 2) * 8000 + 1 * q.val = P.val; rw [e0, hP]; omega
  | ⟨1, _⟩ => show win4_0.index t (1 : Fin 2) * 128 + 1 * j.val = j.val; rw [e1]; omega

/-- The same for the right block. -/
theorem emb1 (t : Fin cfg4.N) (q : Fin 8000) (j : Fin 128) (P : Fin 200000) (hP : P.val = 8000 * t.val + q.val) :
    ((cfg4.win 1).blk t).view.emb (ix2 q j) = (ix2 P j : S200000x128.Idx) := by
  obtain ⟨-, -, e0, e1, -⟩ := idx_facts t
  funext a; apply Fin.ext
  match a with
  | ⟨0, _⟩ => show win4_1.index t (0 : Fin 2) * 8000 + 1 * q.val = P.val; rw [e0, hP]; omega
  | ⟨1, _⟩ => show win4_1.index t (1 : Fin 2) * 128 + 1 * j.val = j.val; rw [e1]; omega

/-- The matrix, the bias row, the column and the last bias are read whole at every point. -/
theorem emb2 (t : Fin cfg4.N) (j : Fin 256) (k : Fin 128) :
    ((cfg4.win 2).blk t).view.emb (ix2 j k) = (ix2 j k : S256x128.Idx) := by
  obtain ⟨-, -, -, -, e0, e1, -⟩ := idx_facts t
  funext a; apply Fin.ext
  match a with
  | ⟨0, _⟩ => show win4_2.index t (0 : Fin 2) * 256 + 1 * j.val = j.val; rw [e0]; omega
  | ⟨1, _⟩ => show win4_2.index t (1 : Fin 2) * 128 + 1 * k.val = k.val; rw [e1]; omega

theorem emb3 (t : Fin cfg4.N) (u : Fin 1) (k : Fin 128) :
    ((cfg4.win 3).blk t).view.emb (ix2 u k) = (ix2 u k : S1x128.Idx) := by
  obtain ⟨-, -, -, -, -, -, e0, e1, -⟩ := idx_facts t
  funext a; apply Fin.ext
  match a with
  | ⟨0, _⟩ => show win4_3.index t (0 : Fin 2) * 1 + 1 * u.val = u.val; rw [e0]; omega
  | ⟨1, _⟩ => show win4_3.index t (1 : Fin 2) * 128 + 1 * k.val = k.val; rw [e1]; omega

theorem emb4 (t : Fin cfg4.N) (k : Fin 128) (u : Fin 1) :
    ((cfg4.win 4).blk t).view.emb (ix2 k u) = (ix2 k u : S128x1.Idx) := by
  obtain ⟨-, -, -, -, -, -, -, -, e0, e1, -⟩ := idx_facts t
  funext a; apply Fin.ext
  match a with
  | ⟨0, _⟩ => show win4_4.index t (0 : Fin 2) * 128 + 1 * k.val = k.val; rw [e0]; omega
  | ⟨1, _⟩ => show win4_4.index t (1 : Fin 2) * 1 + 1 * u.val = u.val; rw [e1]; omega

theorem emb5 (t : Fin cfg4.N) (u u' : Fin 1) :
    ((cfg4.win 5).blk t).view.emb (ix2 u u') = (ix2 u u' : S1x1.Idx) := by
  obtain ⟨-, -, -, -, -, -, -, -, -, -, e0, e1, -⟩ := idx_facts t
  funext a; apply Fin.ext
  match a with
  | ⟨0, _⟩ => show win4_5.index t (0 : Fin 2) * 1 + 1 * u.val = u.val; rw [e0]; omega
  | ⟨1, _⟩ => show win4_5.index t (1 : Fin 2) * 1 + 1 * u'.val = u'.val; rw [e1]; omega

/-- Entry (q, u) of the score block at point t is entry (8000 t + q, u) of the score array. -/
theorem emb6 (t : Fin cfg4.N) (q : Fin 8000) (u : Fin 1) (P : Fin 200000) (hP : P.val = 8000 * t.val + q.val) :
    ((cfg4.win 6).blk t).view.emb (ix2 q u) = (ix2 P u : S200000x1.Idx) := by
  obtain ⟨-, -, -, -, -, -, -, -, -, -, -, -, e0, e1⟩ := idx_facts t
  funext a; apply Fin.ext
  match a with
  | ⟨0, _⟩ => show win4_6.index t (0 : Fin 2) * 8000 + 1 * q.val = P.val; rw [e0, hP]; omega
  | ⟨1, _⟩ => show win4_6.index t (1 : Fin 2) * 1 + 1 * u.val = u.val; rw [e1]; omega

/-- What point t writes back is block t of the scores. -/
theorem flushed_eq (c : Dev nD) (t : Fin cfg4.N) :
    (dat4 V c).flushed 6 t = ((cfg4.win 6).blk t).view.read (Elt Ideal) (headArr V c) := by
  show (cfg4.win 6).cut (grid4.coords t) ((dat4 V c).after 6 t) = _
  rw [after4_6]
  unfold out4_6
  rw [View.canon_unit_zero hz]
  simp only [View.ld_unit_zero (S := S8000x128) hz, View.ld_unit_zero (S := S256x128) hz,
    View.ld_unit_zero (S := S1x128) hz, View.ld_unit_zero (S := S128x1) hz, View.ld_unit_zero (S := S1x1) hz]
  have hN : cfg4.N = 25 := N_4
  have key : (k4_pay1 (F := Ideal) (iblk4 V c 0 t) (iblk4 V c 1 t) (iblk4 V c 2 t) (iblk4 V c 3 t) (iblk4 V c 4 t) (iblk4 V c 5 t)
      : S8000x1.Idx → EReal) = fun y : S8000x1.Idx => headArr V c (((cfg4.win 6).blk t).view.emb y) := by
    funext y
    obtain ⟨q, u, rfl⟩ : ∃ (q : Fin 8000) (u : Fin 1), y = ix2 q u := ⟨y 0, y 1, eq_ix2 y⟩
    obtain rfl : u = 0 := Subsingleton.elim u 0
    have ht : t.val < 25 := hN ▸ t.isLt
    have hq := q.isLt
    let P : Fin 200000 := ⟨8000 * t.val + q.val, by omega⟩
    refine (pay_apply (iblk4 V c 0 t) (iblk4 V c 1 t) (iblk4 V c 2 t) (iblk4 V c 3 t) (iblk4 V c 4 t) (iblk4 V c 5 t) q).trans ?_
    rw [emb6 t q 0 P rfl]
    have E0 : (fun j => iblk4 V c 0 t (ix2 q j)) = fun j : Fin 128 => V c main_v51 (ix2 P j) :=
      funext fun j => by
        unfold iblk4; rw [View.read_apply]; exact congrArg (V c main_v51) (emb0 t q j P rfl)
    have E1 : (fun j => iblk4 V c 1 t (ix2 q j)) = fun j : Fin 128 => V c main_v60 (ix2 P j) :=
      funext fun j => by
        unfold iblk4; rw [View.read_apply]; exact congrArg (V c main_v60) (emb1 t q j P rfl)
    have E2 : (fun j k => iblk4 V c 2 t (ix2 j k)) = fun (j : Fin 256) (k : Fin 128) => V c main_arg7 (ix2 j k) :=
      funext fun j => funext fun k => by
        unfold iblk4; rw [View.read_apply]; exact congrArg (V c main_arg7) (emb2 t j k)
    have E3 : (fun k => iblk4 V c 3 t (ix2 (0 : Fin 1) k)) = fun k : Fin 128 => V c main_v61 (ix2 (0 : Fin 1) k) :=
      funext fun k => by
        unfold iblk4; rw [View.read_apply]; exact congrArg (V c main_v61) (emb3 t 0 k)
    have E4 : (fun k => iblk4 V c 4 t (ix2 k (0 : Fin 1))) = fun k : Fin 128 => V c main_arg9 (ix2 k (0 : Fin 1)) :=
      funext fun k => by
        unfold iblk4; rw [View.read_apply]; exact congrArg (V c main_arg9) (emb4 t k 0)
    have E5 : iblk4 V c 5 t (ix2 (0 : Fin 1) (0 : Fin 1)) = V c main_v62 (ix2 (0 : Fin 1) (0 : Fin 1)) :=
      by
        unfold iblk4; rw [View.read_apply]; exact congrArg (V c main_v62) (emb5 t 0 0)
    rw [E0, E1, E2, E3, E4, E5]
    rfl
  exact key

/-- An index of the score array lies in point t's block iff each coordinate lies in the block's range. -/
theorem mem_blk (t : Fin cfg4.N) (i : S200000x1.Idx) :
    i ∈ ((cfg4.win 6).blk t).view.set ↔ ∀ a : Fin 2, win4_6.index t a * S8000x1.size a ≤ (i a).val
      ∧ (i a).val < win4_6.index t a * S8000x1.size a + S8000x1.size a := by
  show i ∈ ((View.whole main_v63).slice (win4_6.rect t)).set ↔ _
  rw [View.set_slice_whole, Rect.mem_set_unit]
  exact Iff.rfl

/-- Every pair lies in some point's block: pair p in the block of point p / 8000. -/
theorem cover (i : S200000x1.Idx) :
    ∃ t : Fin cfg4.N, (cfg4.win 6).flush t = true ∧ i ∈ ((cfg4.win 6).blk t).view.set := by
  have hN : cfg4.N = 25 := N_4
  have hi0 : (i 0).val < 200000 := (i 0).isLt
  have hi1 : (i 1).val < 1 := (i 1).isLt
  have hlt : (i 0).val / 8000 < cfg4.N := by rw [hN]; omega
  obtain ⟨-, -, -, -, -, -, -, -, -, -, -, -, e0, e1⟩ := idx_facts ⟨(i 0).val / 8000, hlt⟩
  refine ⟨⟨(i 0).val / 8000, hlt⟩, flush4_6 _, ?_⟩
  rw [mem_blk]
  intro a
  match a with
  | ⟨0, _⟩ =>
    show win4_6.index ⟨(i 0).val / 8000, hlt⟩ (0 : Fin 2) * 8000 ≤ (i 0).val
      ∧ (i 0).val < win4_6.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win4_6.index ⟨(i 0).val / 8000, hlt⟩ (1 : Fin 2) * 1 ≤ (i 1).val
      ∧ (i 1).val < win4_6.index ⟨(i 0).val / 8000, hlt⟩ (1 : Fin 2) * 1 + 1
    rw [e1]; omega

/-- After the region the score array holds the score of every pair. -/
theorem final (c : Dev nD) : (dat4 V c).arrAt 6 cfg4.N = headArr V c :=
  (dat4 V c).arrAt_eq_of_cover 6 (headArr V c) (fun t _ => flushed_eq V c t) cover

end Cert.KernelSide.Head4

namespace Cert.KernelSide

open Idealize.ShloMosaic Idealize.ShloMosaic.ValueIdx Idealize.ShloMosaic.TcCoe Cert.KernelIdeal Cert.KernelIdeal.Gen

/-- Entry p of the score array after the region is the scoring head of row p of the two fetched-row arrays. -/
theorem region4 (V : (c : Dev nD) → (b : Ref sig .tc) → Buf (Elt Ideal) ((c : Thread nD τ).loc b))
    (c : Dev nD) (p : Fin 200000) :
    (dat4 V c).arrAt 6 cfg4.N (ix2 p (0 : Fin 1))
      = Cert.Gcn.head (fun j => V c main_v51 (ix2 p j)) (fun j => V c main_v60 (ix2 p j))
          (fun j k => V c main_arg7 (ix2 j k)) (fun k => V c main_v61 (ix2 (0 : Fin 1) k))
          (fun k => V c main_arg9 (ix2 k (0 : Fin 1))) (V c main_v62 (ix2 (0 : Fin 1) (0 : Fin 1))) :=
  congrFun (Head4.final V c) (ix2 p (0 : Fin 1))

end Cert.KernelSide

end
-- ==== Proof.KernelValue.lean ====
/-
  The kernel's result, entry by entry, is the specification's score with every layer "scaled after".

  Reading the boundaries in order: the first region leaves (x W1)[s, k] · dinv s; fetched through the source list and
  accumulated through the destination list this is the sum over the positions arriving at v; the second region
  multiplies by dinv v, adds the bias and clamps at zero — the first layer's features.  Regions three and four with
  the stretch between them repeat this on those features — the second layer's.  The last stretch fetches, for pair
  p, the rows its two integers name, and the last region scores the pair.
-/
import proofs.«147584_j43087111914333_2_alg».proof.Proof.KernelTerms
import Idealize.ShloMosaic.Lib.ValueLayout
import proofs.«147584_j43087111914333_2_alg».proof.Proof.RegionProj0
import proofs.«147584_j43087111914333_2_alg».proof.Proof.RegionPost1
import proofs.«147584_j43087111914333_2_alg».proof.Proof.RegionProj2
import proofs.«147584_j43087111914333_2_alg».proof.Proof.RegionPost3
import proofs.«147584_j43087111914333_2_alg».proof.Proof.RegionHead4

set_option maxRecDepth 16384

noncomputable section

open scoped BigOperators

namespace Cert.KernelSide

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.Gcn

variable (m : (ℓ : Loc nD τ sig) → Buf (Elt Ideal) ℓ) (ρ : Dev nD → PrngReg) (c : Dev nD)

/-! ## The degree column and the bias rows, wherever a region reads them -/

theorem v15_at3 (s : Fin 50000) : V3 m ρ c main_v15 (ix2 s (0 : Fin 1)) = dinv (edgeOf 1 (m ((c : Thread nD τ).loc main_arg1))) s := by
  have h : W3 m ρ c (Proc.devRef .tc main_v15) = shapeCast S50000x1 (dinvA (m ((c : Thread nD τ).loc main_arg1))) shapeCasts_S50000_S50000x1 := by
    rw [show W3 m ρ c (Proc.devRef .tc main_v15) = _ from s02_v15 (W2 m ρ c),
      show W2 m ρ c (Proc.devRef .tc main_v14) = _ from s01_v14 (W1 m ρ c),
      show W1 m ρ c (Proc.devRef .tc main_v12) = _ from s0_v12 (W0 m ρ c),
      show W1 m ρ c (Proc.devRef .tc main_v13) = _ from s0_v13 (W0 m ρ c),
      show W1 m ρ c (Proc.devRef .tc main_cst_2) = _ from s0_cst2 (W0 m ρ c)]
    rfl
  show W3 m ρ c (Proc.devRef .tc main_v15) (ix2 s (0 : Fin 1)) = _
  rw [h, shapeCast_a_a1_apply, dinvA_apply]

theorem v15_at5 (s : Fin 50000) : V5 m ρ c main_v15 (ix2 s (0 : Fin 1)) = dinv (edgeOf 1 (m ((c : Thread nD τ).loc main_arg1))) s := by
  show W5 m ρ c (Proc.devRef .tc main_v15) (ix2 s (0 : Fin 1)) = _
  rw [keep_v15_5_3]; exact v15_at3 m ρ c s

theorem v15_at6 (s : Fin 50000) : V6 m ρ c main_v15 (ix2 s (0 : Fin 1)) = dinv (edgeOf 1 (m ((c : Thread nD τ).loc main_arg1))) s := by
  show W6 m ρ c (Proc.devRef .tc main_v15) (ix2 s (0 : Fin 1)) = _
  rw [keep_v15_6_5]; exact v15_at5 m ρ c s

theorem v15_at8 (s : Fin 50000) : V8 m ρ c main_v15 (ix2 s (0 : Fin 1)) = dinv (edgeOf 1 (m ((c : Thread nD τ).loc main_arg1))) s := by
  show W8 m ρ c (Proc.devRef .tc main_v15) (ix2 s (0 : Fin 1)) = _
  rw [keep_v15_8_6]; exact v15_at6 m ρ c s

theorem v16_at5 (k : Fin 128) : V5 m ρ c main_v16 (ix2 (0 : Fin 1) k) = (m ((c : Thread nD τ).loc main_arg4)) (ix1 k) := by
  show W5 m ρ c (Proc.devRef .tc main_v16) (ix2 (0 : Fin 1) k) = _
  rw [keep_v16_5_3, show W3 m ρ c (Proc.devRef .tc main_v16) = _ from s02_v16 (W2 m ρ c), shapeCast_a_1a_apply, keep_arg4_2_0]

theorem v17_at8 (k : Fin 128) : V8 m ρ c main_v17 (ix2 (0 : Fin 1) k) = (m ((c : Thread nD τ).loc main_arg6)) (ix1 k) := by
  show W8 m ρ c (Proc.devRef .tc main_v17) (ix2 (0 : Fin 1) k) = _
  rw [keep_v17_8_3, show W3 m ρ c (Proc.devRef .tc main_v17) = _ from s02_v17 (W2 m ρ c), shapeCast_a_1a_apply, keep_arg6_2_0]

/-! ## The edge lists, wherever a stretch reads them -/

theorem v3_at4 : W4 m ρ c (Proc.devRef .tc main_v3) = srcL (m ((c : Thread nD τ).loc main_arg1)) := by
  rw [keep_v3_4_1, show W1 m ρ c (Proc.devRef .tc main_v3) = _ from s0_v3 (W0 m ρ c)]
theorem v6_at4 : W4 m ρ c (Proc.devRef .tc main_v6) = dstL (m ((c : Thread nD τ).loc main_arg1)) := by
  rw [keep_v6_4_1, show W1 m ρ c (Proc.devRef .tc main_v6) = _ from s0_v6 (W0 m ρ c)]
theorem v3_at7 : W7 m ρ c (Proc.devRef .tc main_v3) = srcL (m ((c : Thread nD τ).loc main_arg1)) := by rw [keep_v3_7_4]; exact v3_at4 m ρ c
theorem v6_at7 : W7 m ρ c (Proc.devRef .tc main_v6) = dstL (m ((c : Thread nD τ).loc main_arg1)) := by rw [keep_v6_7_4]; exact v6_at4 m ρ c

/-! ## The first layer -/

/-- The argument features and weights as functions of two coordinates. -/
abbrev X0 : Fin 50000 → Fin 128 → EReal := fun s j => (m ((c : Thread nD τ).loc main_arg0)) (ix2 s j)
abbrev Wt1 : Fin 128 → Fin 128 → EReal := fun j k => (m ((c : Thread nD τ).loc main_arg3)) (ix2 j k)
abbrev Wt2 : Fin 128 → Fin 128 → EReal := fun j k => (m ((c : Thread nD τ).loc main_arg5)) (ix2 j k)

theorem v18_at4 (s : Fin 50000) (k : Fin 128) :
    V4 m ρ c main_v18 (ix2 s k) = proj (X0 m c) (Wt1 m c) s k * dinv (edgeOf 1 (m ((c : Thread nD τ).loc main_arg1))) s := by
  have e0 : V3 m ρ c main_arg0 = (m ((c : Thread nD τ).loc main_arg0)) := keep_arg0_3_0 m ρ c
  have e3 : V3 m ρ c main_arg3 = (m ((c : Thread nD τ).loc main_arg3)) := keep_arg3_3_0 m ρ c
  show W4 m ρ c (Proc.devRef .tc main_v18) (ix2 s k) = _
  rw [show W4 m ρ c (Proc.devRef .tc main_v18) = _ from W4_arr m ρ c 3, region0 (V3 m ρ) c s k, e0, e3]
  unfold projEntry
  rw [v15_at3]
  rfl

theorem v28_at5 (v : Fin 50000) (k : Fin 128) :
    V5 m ρ c main_v28 (ix2 v k) = zeroF + ∑ e ∈ into (edgeOf 1 (m ((c : Thread nD τ).loc main_arg1))) v,
      proj (X0 m c) (Wt1 m c) (srcRow (edgeOf 0 (m ((c : Thread nD τ).loc main_arg1))) e) k * dinv (edgeOf 1 (m ((c : Thread nD τ).loc main_arg1))) (srcRow (edgeOf 0 (m ((c : Thread nD τ).loc main_arg1))) e) := by
  have h : W5 m ρ c (Proc.devRef .tc main_v28) = aggA (m ((c : Thread nD τ).loc main_arg1)) (W4 m ρ c (Proc.devRef .tc main_v18)) := by
    rw [show W5 m ρ c (Proc.devRef .tc main_v28) = _ from s1_v28 (W4 m ρ c), v6_at4, v3_at4]; rfl
  show W5 m ρ c (Proc.devRef .tc main_v28) (ix2 v k) = _
  rw [h, aggA_apply]
  exact congrArg _ (Finset.sum_congr rfl fun e _ => v18_at4 m ρ c _ k)

theorem v29_at6 (v : Fin 50000) (k : Fin 128) :
    V6 m ρ c main_v29 (ix2 v k) = layerAfter (edgeOf 0 (m ((c : Thread nD τ).loc main_arg1))) (edgeOf 1 (m ((c : Thread nD τ).loc main_arg1))) (X0 m c) (Wt1 m c) (fun k => (m ((c : Thread nD τ).loc main_arg4)) (ix1 k)) v k := by
  show W6 m ρ c (Proc.devRef .tc main_v29) (ix2 v k) = _
  rw [show W6 m ρ c (Proc.devRef .tc main_v29) = _ from W6_arr m ρ c 3, region1 (V5 m ρ) c v k]
  unfold postEntry
  rw [v28_at5, v15_at5, v16_at5]
  rfl

/-! ## The second layer -/

abbrev H1 : Fin 50000 → Fin 128 → EReal := fun s j => V6 m ρ c main_v29 (ix2 s j)

theorem v30_at7 (s : Fin 50000) (k : Fin 128) :
    V7 m ρ c main_v30 (ix2 s k) = proj (H1 m ρ c) (Wt2 m c) s k * dinv (edgeOf 1 (m ((c : Thread nD τ).loc main_arg1))) s := by
  have e5 : V6 m ρ c main_arg5 = (m ((c : Thread nD τ).loc main_arg5)) := keep_arg5_6_0 m ρ c
  show W7 m ρ c (Proc.devRef .tc main_v30) (ix2 s k) = _
  rw [show W7 m ρ c (Proc.devRef .tc main_v30) = _ from W7_arr m ρ c 3, region2 (V6 m ρ) c s k, e5]
  unfold projEntry
  rw [v15_at6]
  rfl

theorem v40_at8 (v : Fin 50000) (k : Fin 128) :
    V8 m ρ c main_v40 (ix2 v k) = zeroF + ∑ e ∈ into (edgeOf 1 (m ((c : Thread nD τ).loc main_arg1))) v,
      proj (H1 m ρ c) (Wt2 m c) (srcRow (edgeOf 0 (m ((c : Thread nD τ).loc main_arg1))) e) k * dinv (edgeOf 1 (m ((c : Thread nD τ).loc main_arg1))) (srcRow (edgeOf 0 (m ((c : Thread nD τ).loc main_arg1))) e) := by
  have h : W8 m ρ c (Proc.devRef .tc main_v40) = aggA (m ((c : Thread nD τ).loc main_arg1)) (W7 m ρ c (Proc.devRef .tc main_v30)) := by
    rw [show W8 m ρ c (Proc.devRef .tc main_v40) = _ from s3_v40 (W7 m ρ c), v6_at7, v3_at7]; rfl
  show W8 m ρ c (Proc.devRef .tc main_v40) (ix2 v k) = _
  rw [h, aggA_apply]
  exact congrArg _ (Finset.sum_congr rfl fun e _ => v30_at7 m ρ c _ k)

theorem v41_at9 (v : Fin 50000) (k : Fin 128) :
    V9 m ρ c main_v41 (ix2 v k) = feats layerAfter (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) v k := by
  have hH : H1 m ρ c = layerAfter (edgeOf 0 (m ((c : Thread nD τ).loc main_arg1))) (edgeOf 1 (m ((c : Thread nD τ).loc main_arg1))) (X0 m c) (Wt1 m c) (fun k => (m ((c : Thread nD τ).loc main_arg4)) (ix1 k)) :=
    funext fun s => funext fun j => v29_at6 m ρ c s j
  show W9 m ρ c (Proc.devRef .tc main_v41) (ix2 v k) = _
  rw [show W9 m ρ c (Proc.devRef .tc main_v41) = _ from W9_arr m ρ c 3, region3 (V8 m ρ) c v k]
  unfold postEntry
  rw [v40_at8, v15_at8, v17_at8, hH]
  rfl

/-! ## The pairs -/

theorem arg2_at9 : W9 m ρ c (Proc.devRef .tc main_arg2) = (m ((c : Thread nD τ).loc main_arg2)) := by
  rw [← keep_arg2_11_9]; exact W11_main_arg2 m ρ c
theorem arg8_at9 : W9 m ρ c (Proc.devRef .tc main_arg8) = (m ((c : Thread nD τ).loc main_arg8)) := by
  rw [← keep_arg8_11_9]; exact W11_main_arg8 m ρ c
theorem arg10_at9 : W9 m ρ c (Proc.devRef .tc main_arg10) = (m ((c : Thread nD τ).loc main_arg10)) := by
  rw [← keep_arg10_11_9]; exact W11_main_arg10 m ρ c
theorem arg7_at10 : V10 m ρ c main_arg7 = (m ((c : Thread nD τ).loc main_arg7)) := by
  show W10 m ρ c (Proc.devRef .tc main_arg7) = _
  rw [← keep_arg7_11_10]; exact W11_main_arg7 m ρ c
theorem arg9_at10 : V10 m ρ c main_arg9 = (m ((c : Thread nD τ).loc main_arg9)) := by
  show W10 m ρ c (Proc.devRef .tc main_arg9) = _
  rw [← keep_arg9_11_10]; exact W11_main_arg9 m ρ c

theorem v51_at10 (p : Fin 200000) (j : Fin 128) :
    V10 m ρ c main_v51 (ix2 p j) = V9 m ρ c main_v41 (ix2 (rowOf (wrap ((m ((c : Thread nD τ).loc main_arg2)) (ix2 p (0 : Fin 2))))) j) := by
  show W10 m ρ c (Proc.devRef .tc main_v51) (ix2 p j) = _
  rw [show W10 m ρ c (Proc.devRef .tc main_v51) = _ from s4_v51 (W9 m ρ c), arg2_at9, pairFetch_apply 0 (by decide)]
  rfl

theorem v60_at10 (p : Fin 200000) (j : Fin 128) :
    V10 m ρ c main_v60 (ix2 p j) = V9 m ρ c main_v41 (ix2 (rowOf (wrap ((m ((c : Thread nD τ).loc main_arg2)) (ix2 p (1 : Fin 2))))) j) := by
  show W10 m ρ c (Proc.devRef .tc main_v60) (ix2 p j) = _
  rw [show W10 m ρ c (Proc.devRef .tc main_v60) = _ from s4_v60 (W9 m ρ c), arg2_at9, pairFetch_apply 1 (by decide)]
  rfl

theorem v61_at10 (k : Fin 128) : V10 m ρ c main_v61 (ix2 (0 : Fin 1) k) = (m ((c : Thread nD τ).loc main_arg8)) (ix1 k) := by
  show W10 m ρ c (Proc.devRef .tc main_v61) (ix2 (0 : Fin 1) k) = _
  rw [show W10 m ρ c (Proc.devRef .tc main_v61) = _ from s4_v61 (W9 m ρ c), shapeCast_a_1a_apply, arg8_at9]

theorem v62_at10 : V10 m ρ c main_v62 (ix2 (0 : Fin 1) (0 : Fin 1)) = (m ((c : Thread nD τ).loc main_arg10)) (ix1 (0 : Fin 1)) := by
  show W10 m ρ c (Proc.devRef .tc main_v62) (ix2 (0 : Fin 1) (0 : Fin 1)) = _
  rw [show W10 m ρ c (Proc.devRef .tc main_v62) = _ from s4_v62 (W9 m ρ c), shapeCast_a_1a_apply, arg10_at9]

/-! ## The result -/

/-- The result array after the run, at pair p, is the specification's score with layers scaled after the sum. -/
theorem result_eq (p : Fin 200000) :
    W11 m ρ c (Proc.devRef .tc main_v63) (ix2 p (0 : Fin 1))
      = resultWith layerAfter (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) p := by
  rw [show W11 m ρ c (Proc.devRef .tc main_v63) = _ from W11_arr m ρ c 6, region4 (V10 m ρ) c p]
  unfold resultWith
  have e1 : (fun j => V10 m ρ c main_v51 (ix2 p j))
      = feats layerAfter (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (rowOf (wrap ((m ((c : Thread nD τ).loc main_arg2)) (ix2 p (0 : Fin 2))))) :=
    funext fun j => (v51_at10 m ρ c p j).trans (v41_at9 m ρ c _ j)
  have e2 : (fun j => V10 m ρ c main_v60 (ix2 p j))
      = feats layerAfter (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (rowOf (wrap ((m ((c : Thread nD τ).loc main_arg2)) (ix2 p (1 : Fin 2))))) :=
    funext fun j => (v60_at10 m ρ c p j).trans (v41_at9 m ρ c _ j)
  have e4 : (fun k => V10 m ρ c main_v61 (ix2 (0 : Fin 1) k)) = fun k => (m ((c : Thread nD τ).loc main_arg8)) (ix1 k) := funext (v61_at10 m ρ c)
  rw [e1, e2, e4, arg7_at10, arg9_at10, v62_at10]

end Cert.KernelSide

end
-- ==== Proof.RefValueOps.lean ====
/-
  The reference's gathers and accumulating scatters at their literal sizes, read at an index.

  A gather through a column of integers fetches the row named by the integer read signed and clamped into
  [0, 49999]: this is Cert.Gcn.rowOf.  An accumulating scatter adds into row v the update rows of the positions whose
  integer, read signed, is v: the set Cert.Gcn.into.
-/
import proofs.«147584_j43087111914333_2_alg».proof.Proof.Gen.ReferenceIdeal
import proofs.«147584_j43087111914333_2_alg».proof.Proof.LibEdgeIndex
import proofs.«147584_j43087111914333_2_alg».proof.Proof.Spec

set_option maxRecDepth 16384

noncomputable section

open scoped BigOperators

namespace Cert.RefSide

open Cert.ReferenceIdeal Cert.ReferenceIdeal.Gen Idealize.ShloMosaic Idealize.ShloMosaic.ValueIdx
  Idealize.ShloMosaic.EdgeIndex Cert.Gcn

/-- A 32-bit integer that is negative gets 50000 added: the stage form of Cert.Gcn.wrap. -/
theorem wrap_stage (z : BitVec 32) :
    Scalar.select (IntOp.cmpi .slt z 0#32) (IntOp.addi z 50000#32) z = wrap z := rfl

/-- One entry of the degree-factor vector fetched through a column of 1650000 integers. -/
theorem gatherVec_at (T : (⟨S50000, .f32⟩ : BufTy).Contents (Elt Ideal))
    (col : (⟨S1650000x1, .i32⟩ : BufTy).Contents (Elt Ideal)) (e : Fin 1650000) :
    Host.gather gather_S50000_S1650000x1_S1650000_n_0_n_n_0_1_1 T col (ix1 e) = T (ix1 (rowOf (col (ix2 e 0)))) :=
  gather_vec_apply (N := 50000) (M := 1650000) (by decide) gather_S50000_S1650000x1_S1650000_n_0_n_n_0_1_1_wf T col e

/-- One entry of a row of the feature table fetched through a column of 1650000 integers. -/
theorem gatherRow_at (T : (⟨S50000x128, .f32⟩ : BufTy).Contents (Elt Ideal))
    (col : (⟨S1650000x1, .i32⟩ : BufTy).Contents (Elt Ideal)) (e : Fin 1650000) (k : Fin 128) :
    Host.gather gather_S50000x128_S1650000x1_S1650000x128_1_0_n_n_0_1_1128 T col (ix2 e k)
      = T (ix2 (rowOf (col (ix2 e 0))) k) :=
  gather_row_apply (N := 50000) (M := 1650000) (D := 128) (by decide)
    gather_S50000x128_S1650000x1_S1650000x128_1_0_n_n_0_1_1128_wf T col e k

/-- One entry of a row of the feature table fetched through a column of 200000 integers. -/
theorem gatherPair_at (T : (⟨S50000x128, .f32⟩ : BufTy).Contents (Elt Ideal))
    (col : (⟨S200000x1, .i32⟩ : BufTy).Contents (Elt Ideal)) (p : Fin 200000) (k : Fin 128) :
    Host.gather gather_S50000x128_S200000x1_S200000x128_1_0_n_n_0_1_1128 T col (ix2 p k)
      = T (ix2 (rowOf (col (ix2 p 0))) k) :=
  gather_row_apply (N := 50000) (M := 200000) (D := 128) (by decide)
    gather_S50000x128_S200000x1_S200000x128_1_0_n_n_0_1_1128_wf T col p k

/-- Entry v of the accumulated vector: the old entry plus the updates of the positions arriving at v. -/
theorem scatterVec_at (x : (⟨S50000, .f32⟩ : BufTy).Contents (Elt Ideal))
    (col : (⟨S1650000x1, .i32⟩ : BufTy).Contents (Elt Ideal))
    (u : (⟨S1650000, .f32⟩ : BufTy).Contents (Elt Ideal)) (v : Fin 50000) :
    Host.scatterAdd (F := Ideal) (φ := .f32) scatter_S50000_S1650000x1_S1650000_n_0_0_1 x col u (ix1 v)
      = x (ix1 v) + ∑ e ∈ into (fun e => col (ix2 e 0)) v, u (ix1 e) :=
  scatterAdd_vec_apply (N := 50000) (M := 1650000) scatter_S50000_S1650000x1_S1650000_n_0_0_1_wf x col u v

/-- Entry (v, k) of the accumulated table: the old entry plus the update rows of the positions arriving at v. -/
theorem scatterRow_at (x : (⟨S50000x128, .f32⟩ : BufTy).Contents (Elt Ideal))
    (col : (⟨S1650000x1, .i32⟩ : BufTy).Contents (Elt Ideal))
    (u : (⟨S1650000x128, .f32⟩ : BufTy).Contents (Elt Ideal)) (v : Fin 50000) (k : Fin 128) :
    Host.scatterAdd (F := Ideal) (φ := .f32) scatter_S50000x128_S1650000x1_S1650000x128_1_0_0_1 x col u (ix2 v k)
      = x (ix2 v k) + ∑ e ∈ into (fun e => col (ix2 e 0)) v, u (ix2 e k) :=
  scatterAdd_row_apply (N := 50000) (M := 1650000) (D := 128) scatter_S50000x128_S1650000x1_S1650000x128_1_0_0_1_wf x col u v k

end Cert.RefSide

end
-- ==== Proof.RefValueIdx.lean ====
/-
  The integer stages of the reference, read at a position: the two edge lists, their wrapped forms, the columns
  the gathers and scatters read them through, and from them the degree, the degree factor and the per-edge
  product of the two factors.
-/
import proofs.«147584_j43087111914333_2_alg».proof.Proof.RefReadP
import proofs.«147584_j43087111914333_2_alg».proof.Proof.RefValueOps
import proofs.«147584_j43087111914333_2_alg».proof.Proof.LibEdgeList

set_option maxRecDepth 16384

noncomputable section

open scoped BigOperators

namespace Cert.RefSide

open Cert.ReferenceIdeal Cert.ReferenceIdeal.Gen Idealize.ShloMosaic Idealize.ShloMosaic.ValueIdx
  Idealize.ShloMosaic.EdgeIndex Cert.Gcn

open Cert.ReferenceIdeal.ReadP

variable (x1 : (⟨S2x1600000, .i32⟩ : BufTy).Contents (Elt Ideal))

/-! ## The edge lists -/

theorem v3_at (e : Fin 1650000) : val_main_v3 (F := Ideal) x1 (ix1 e) = edgeOf 0 x1 e := by
  unfold val_main_v3 val_main_v2 val_main_v1 val_main_v0
  exact Idealize.ShloMosaic.EdgeList.edgeList_apply 0 (by decide) x1 _ _ _ e

theorem v6_at (e : Fin 1650000) : val_main_v6 (F := Ideal) x1 (ix1 e) = edgeOf 1 x1 e := by
  unfold val_main_v6 val_main_v5 val_main_v4 val_main_v0
  exact Idealize.ShloMosaic.EdgeList.edgeList_apply 1 (by decide) x1 _ _ _ e

/-! ## Wrapped lists and the columns -/

theorem v20_at (e : Fin 1650000) : val_main_v20 (F := Ideal) x1 (ix1 e) = wrap (edgeOf 0 x1 e) := by
  rw [val_main_v20_apply, val_main_v17_apply, val_main_v19_apply, val_main_v16_apply, val_main_v18_apply,
    val_main_c_apply, val_main_c_3_apply, v3_at]
  rfl

theorem v27_at (e : Fin 1650000) : val_main_v27 (F := Ideal) x1 (ix1 e) = wrap (edgeOf 1 x1 e) := by
  rw [val_main_v27_apply, val_main_v24_apply, val_main_v26_apply, val_main_v23_apply, val_main_v25_apply,
    val_main_c_4_apply, val_main_c_5_apply, v6_at]
  rfl

theorem v10_col (e : Fin 1650000) : val_main_v10 (F := Ideal) x1 (ix2 e 0) = edgeOf 1 x1 e := by
  rw [val_main_v10_apply]
  have h : idx_main_v10 (ix2 e (0 : Fin 1)) = ix1 e := by funext a; match a with | ⟨0, _⟩ => rfl
  rw [h]; exact v6_at x1 e

theorem v21_col (e : Fin 1650000) : val_main_v21 (F := Ideal) x1 (ix2 e 0) = wrap (edgeOf 0 x1 e) := by
  rw [val_main_v21_apply]
  have h : idx_main_v21 (ix2 e (0 : Fin 1)) = ix1 e := by funext a; match a with | ⟨0, _⟩ => rfl
  rw [h]; exact v20_at x1 e

theorem v28_col (e : Fin 1650000) : val_main_v28 (F := Ideal) x1 (ix2 e 0) = wrap (edgeOf 1 x1 e) := by
  rw [val_main_v28_apply]
  have h : idx_main_v28 (ix2 e (0 : Fin 1)) = ix1 e := by funext a; match a with | ⟨0, _⟩ => rfl
  rw [h]; exact v27_at x1 e

/-! ## Degree and degree factor -/

theorem v11_at (v : Fin 50000) : val_main_v11 (F := Ideal) x1 (ix1 v) = deg (edgeOf 1 x1) v := by
  unfold val_main_v11
  rw [scatterVec_at, show (fun e => val_main_v10 (F := Ideal) x1 (ix2 e 0)) = edgeOf 1 x1 from funext (v10_col x1),
    val_main_v9_apply, val_main_cst_0_apply]
  simp only [val_main_v8_apply, val_main_cst_apply]
  rfl

theorem v15_at (v : Fin 50000) : val_main_v15 (F := Ideal) x1 (ix1 v) = dinv (edgeOf 1 x1) v := by
  rw [val_main_v15_apply, val_main_v13_apply, val_main_v14_apply, val_main_v12_apply, val_main_cst_1_apply,
    val_main_call0_v1_apply, val_main_call0_v0_apply, val_main_cst_2_apply, v11_at]
  unfold dinv
  rw [Ideal.cmpf_def, Ideal.hostUnary_rsqrt_def, Ideal.ofBits_def]

/-! ## The product of the two factors of an edge -/

theorem v30_at (e : Fin 1650000) : val_main_v30 (F := Ideal) x1 (ix1 e)
    = dinv (edgeOf 1 x1) (srcRow (edgeOf 0 x1) e) * dinv (edgeOf 1 x1) (rowOf (wrap (edgeOf 1 x1 e))) := by
  rw [val_main_v30_apply]
  unfold val_main_v22 val_main_v29
  rw [gatherVec_at, gatherVec_at, v21_col, v28_col, v15_at, v15_at]
  rfl

/-- The product spread along a row of 128. -/
theorem v39_at (e : Fin 1650000) (k : Fin 128) : val_main_v39 (F := Ideal) x1 (ix2 e k)
    = dinv (edgeOf 1 x1) (srcRow (edgeOf 0 x1) e) * dinv (edgeOf 1 x1) (rowOf (wrap (edgeOf 1 x1 e))) := by
  rw [val_main_v39_apply, val_main_v38_apply]
  refine (congrArg (val_main_v30 (F := Ideal) x1) ?_).trans (v30_at x1 e)
  funext a; match a with | ⟨0, _⟩ => rfl

/-! ## The second layer computes the same integer stages again -/

theorem v35_eq : val_main_v35 (F := Ideal) x1 = val_main_v20 (F := Ideal) x1 := rfl
theorem v36_eq : val_main_v36 (F := Ideal) x1 = val_main_v21 (F := Ideal) x1 := rfl
theorem v42_eq : val_main_v42 (F := Ideal) x1 = val_main_v10 (F := Ideal) x1 := rfl
theorem v77_eq : val_main_v77 (F := Ideal) x1 = val_main_v21 (F := Ideal) x1 := rfl
theorem v83_eq : val_main_v83 (F := Ideal) x1 = val_main_v10 (F := Ideal) x1 := rfl
theorem v80_eq : val_main_v80 (F := Ideal) x1 = val_main_v39 (F := Ideal) x1 := rfl

end Cert.RefSide

end
-- ==== Proof.RefValueLayer.lean ====
/-
  One graph-convolution layer of the reference, read at an entry: the dense projection, the message of an edge (the
  fetched projected row times the product of the two degree factors), the sum of the messages arriving at a node, the
  bias and the rectifier.  The reference keeps the destination's factor inside every summand, which is
  Cert.Gcn.layerInside.  The second layer is the first one again on the first layer's output.
-/
import proofs.«147584_j43087111914333_2_alg».proof.Proof.RefReadP
import proofs.«147584_j43087111914333_2_alg».proof.Proof.RefValueIdx

set_option maxRecDepth 16384

noncomputable section

open scoped BigOperators

namespace Cert.RefSide

open Cert.ReferenceIdeal Cert.ReferenceIdeal.Gen Idealize.ShloMosaic Idealize.ShloMosaic.ValueIdx
  Idealize.ShloMosaic.EdgeIndex Cert.Gcn

open Cert.ReferenceIdeal.ReadP

variable (x0 : (⟨S50000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))

/-! ## The first layer -/

theorem v7_at (s : Fin 50000) (k : Fin 128) : val_main_v7 (F := Ideal) x0 x3 (ix2 s k)
    = proj (fun s j => x0 (ix2 s j)) (fun j k => x3 (ix2 j k)) s k := by
  rw [val_main_v7_apply]
  unfold proj
  refine Finset.sum_congr rfl fun j _ => ?_
  have hl : lidx_main_v7 (ix2 s k) j = ix2 s j := by funext a; match a with | ⟨0, _⟩ => rfl | ⟨1, _⟩ => rfl
  have hr : ridx_main_v7 (ix2 s k) j = ix2 j k := by funext a; match a with | ⟨0, _⟩ => rfl | ⟨1, _⟩ => rfl
  rw [hl, hr]

theorem v40_at (e : Fin 1650000) (k : Fin 128) : val_main_v40 (F := Ideal) x0 x1 x3 (ix2 e k)
    = proj (fun s j => x0 (ix2 s j)) (fun j k => x3 (ix2 j k)) (srcRow (edgeOf 0 x1) e) k * (dinv (edgeOf 1 x1) (srcRow (edgeOf 0 x1) e) * dinv (edgeOf 1 x1) (rowOf (wrap (edgeOf 1 x1 e)))) := by
  rw [val_main_v40_apply]
  unfold val_main_v37
  rw [gatherRow_at, v36_eq, v21_col, v7_at, v39_at]
  rfl

theorem v43_at (v : Fin 50000) (k : Fin 128) : val_main_v43 (F := Ideal) x0 x1 x3 (ix2 v k)
    = zeroF + ∑ e ∈ into (edgeOf 1 x1) v,
        proj (fun s j => x0 (ix2 s j)) (fun j k => x3 (ix2 j k)) (srcRow (edgeOf 0 x1) e) k * (dinv (edgeOf 1 x1) (srcRow (edgeOf 0 x1) e) * dinv (edgeOf 1 x1) (rowOf (wrap (edgeOf 1 x1 e)))) := by
  unfold val_main_v43
  rw [scatterRow_at, v42_eq, show (fun e => val_main_v10 (F := Ideal) x1 (ix2 e 0)) = edgeOf 1 x1 from funext (v10_col x1),
    val_main_v41_apply, val_main_cst_8_apply]
  simp only [v40_at]
  rfl

theorem v47_at (v : Fin 50000) (k : Fin 128) : val_main_v47 (F := Ideal) x0 x1 x3 x4 (ix2 v k)
    = layerInside (edgeOf 0 x1) (edgeOf 1 x1) (fun s j => x0 (ix2 s j)) (fun j k => x3 (ix2 j k)) (fun k => x4 (ix1 k)) v k := by
  rw [val_main_v47_apply, val_main_v46_apply, v43_at, val_main_v45_apply, val_main_v44_apply, val_main_call1_v0_apply,
    val_main_call1_cst_apply]
  have hb : idx_main_v44 (idx_main_v45 (ix2 v k)) = ix1 k := by funext a; match a with | ⟨0, _⟩ => rfl
  rw [hb]
  rfl

/-! ## The second layer -/

theorem v48_at (s : Fin 50000) (k : Fin 128) : val_main_v48 (F := Ideal) x0 x1 x3 x4 x5 (ix2 s k)
    = proj (fun s j => val_main_v47 (F := Ideal) x0 x1 x3 x4 (ix2 s j)) (fun j k => x5 (ix2 j k)) s k := by
  rw [val_main_v48_apply]
  unfold proj
  refine Finset.sum_congr rfl fun j _ => ?_
  have hl : lidx_main_v48 (ix2 s k) j = ix2 s j := by funext a; match a with | ⟨0, _⟩ => rfl | ⟨1, _⟩ => rfl
  have hr : ridx_main_v48 (ix2 s k) j = ix2 j k := by funext a; match a with | ⟨0, _⟩ => rfl | ⟨1, _⟩ => rfl
  rw [hl, hr]

theorem v81_at (e : Fin 1650000) (k : Fin 128) : val_main_v81 (F := Ideal) x0 x1 x3 x4 x5 (ix2 e k)
    = proj (fun s j => val_main_v47 (F := Ideal) x0 x1 x3 x4 (ix2 s j)) (fun j k => x5 (ix2 j k)) (srcRow (edgeOf 0 x1) e) k * (dinv (edgeOf 1 x1) (srcRow (edgeOf 0 x1) e) * dinv (edgeOf 1 x1) (rowOf (wrap (edgeOf 1 x1 e)))) := by
  rw [val_main_v81_apply]
  unfold val_main_v78
  rw [gatherRow_at, v77_eq, v21_col, v48_at, v80_eq, v39_at]
  rfl

theorem v84_at (v : Fin 50000) (k : Fin 128) : val_main_v84 (F := Ideal) x0 x1 x3 x4 x5 (ix2 v k)
    = zeroF + ∑ e ∈ into (edgeOf 1 x1) v,
        proj (fun s j => val_main_v47 (F := Ideal) x0 x1 x3 x4 (ix2 s j)) (fun j k => x5 (ix2 j k)) (srcRow (edgeOf 0 x1) e) k * (dinv (edgeOf 1 x1) (srcRow (edgeOf 0 x1) e) * dinv (edgeOf 1 x1) (rowOf (wrap (edgeOf 1 x1 e)))) := by
  unfold val_main_v84
  rw [scatterRow_at, v83_eq, show (fun e => val_main_v10 (F := Ideal) x1 (ix2 e 0)) = edgeOf 1 x1 from funext (v10_col x1),
    val_main_v82_apply, val_main_cst_19_apply]
  simp only [v81_at]
  rfl

theorem v88_at (v : Fin 50000) (k : Fin 128) : val_main_v88 (F := Ideal) x0 x1 x3 x4 x5 x6 (ix2 v k)
    = layerInside (edgeOf 0 x1) (edgeOf 1 x1) (fun s j => val_main_v47 (F := Ideal) x0 x1 x3 x4 (ix2 s j))
        (fun j k => x5 (ix2 j k)) (fun k => x6 (ix1 k)) v k := by
  rw [val_main_v88_apply, val_main_v87_apply, v84_at, val_main_v86_apply, val_main_v85_apply, val_main_call3_v0_apply,
    val_main_call3_cst_apply]
  have hb : idx_main_v85 (idx_main_v86 (ix2 v k)) = ix1 k := by funext a; match a with | ⟨0, _⟩ => rfl
  rw [hb]
  rfl

/-- The features after both layers. -/
theorem v88_feats (v : Fin 50000) (k : Fin 128) : val_main_v88 (F := Ideal) x0 x1 x3 x4 x5 x6 (ix2 v k)
    = feats layerInside x0 x1 x3 x4 x5 x6 v k := by
  rw [v88_at, show (fun s j => val_main_v47 (F := Ideal) x0 x1 x3 x4 (ix2 s j))
      = layerInside (edgeOf 0 x1) (edgeOf 1 x1) (fun s j => x0 (ix2 s j)) (fun j k => x3 (ix2 j k)) (fun k => x4 (ix1 k))
    from funext fun s => funext fun j => v47_at x0 x1 x3 x4 s j]
  rfl

end Cert.RefSide

end
-- ==== Proof.RefValueHead.lean ====
/-
  The scoring head of the reference, read at a pair: the two integers of the pair are wrapped and fetch two rows of
  the features; the rows are laid side by side and multiplied into a 256-row matrix, which splits into the two
  128-term sums of Cert.Gcn.head; then the bias, the rectifier, a 128-term dot product and the last bias.
-/
import proofs.«147584_j43087111914333_2_alg».proof.Proof.RefReadP
import proofs.«147584_j43087111914333_2_alg».proof.Proof.RefValueLayer
import proofs.«147584_j43087111914333_2_alg».proof.Proof.LibConcatDot

set_option maxRecDepth 16384

noncomputable section

open scoped BigOperators

namespace Cert.RefSide

open Cert.ReferenceIdeal Cert.ReferenceIdeal.Gen Idealize.ShloMosaic Idealize.ShloMosaic.ValueIdx
  Idealize.ShloMosaic.EdgeIndex Cert.Gcn

open Cert.ReferenceIdeal.ReadP

variable (x0 : (⟨S50000x128, .f32⟩ : BufTy).Contents (Elt Ideal)) (x1 : (⟨S2x1600000, .i32⟩ : BufTy).Contents (Elt Ideal)) (x2 : (⟨S200000x2, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S256x128, .f32⟩ : BufTy).Contents (Elt Ideal)) (x8 : (⟨S128, .f32⟩ : BufTy).Contents (Elt Ideal)) (x9 : (⟨S128x1, .f32⟩ : BufTy).Contents (Elt Ideal)) (x10 : (⟨S1, .f32⟩ : BufTy).Contents (Elt Ideal))

/-! ## The two integers of a pair -/

theorem v95_at (p : Fin 200000) : val_main_v95 (F := Ideal) x2 (ix1 p) = wrap (x2 (ix2 p (0 : Fin 2))) := by
  rw [val_main_v95_apply, val_main_v92_apply, val_main_v94_apply, val_main_v91_apply, val_main_v93_apply,
    val_main_c_20_apply, val_main_c_21_apply, val_main_v90_apply, val_main_v89_apply]
  have h : idx_main_v89 (idx_main_v90 (ix1 p)) = ix2 p (0 : Fin 2) := by
    funext a
    match a with
    | ⟨0, _⟩ => exact Fin.ext (Nat.div_one _)
    | ⟨1, _⟩ => rfl
  rw [h]
  rfl

theorem v104_at (p : Fin 200000) : val_main_v104 (F := Ideal) x2 (ix1 p) = wrap (x2 (ix2 p (1 : Fin 2))) := by
  rw [val_main_v104_apply, val_main_v101_apply, val_main_v103_apply, val_main_v100_apply, val_main_v102_apply,
    val_main_c_22_apply, val_main_c_23_apply, val_main_v99_apply, val_main_v98_apply]
  have h : idx_main_v98 (idx_main_v99 (ix1 p)) = ix2 p (1 : Fin 2) := by
    funext a
    match a with
    | ⟨0, _⟩ => exact Fin.ext (Nat.div_one _)
    | ⟨1, _⟩ => rfl
  rw [h]
  rfl

theorem v96_col (p : Fin 200000) : val_main_v96 (F := Ideal) x2 (ix2 p 0) = wrap (x2 (ix2 p (0 : Fin 2))) := by
  rw [val_main_v96_apply]
  have h : idx_main_v96 (ix2 p (0 : Fin 1)) = ix1 p := by funext a; match a with | ⟨0, _⟩ => rfl
  rw [h]; exact v95_at x2 p

theorem v105_col (p : Fin 200000) : val_main_v105 (F := Ideal) x2 (ix2 p 0) = wrap (x2 (ix2 p (1 : Fin 2))) := by
  rw [val_main_v105_apply]
  have h : idx_main_v105 (ix2 p (0 : Fin 1)) = ix1 p := by funext a; match a with | ⟨0, _⟩ => rfl
  rw [h]; exact v104_at x2 p

/-! ## The two fetched rows -/

theorem v97_at (p : Fin 200000) (k : Fin 128) : val_main_v97 (F := Ideal) x0 x1 x2 x3 x4 x5 x6 (ix2 p k) = feats layerInside x0 x1 x3 x4 x5 x6 (rowOf (wrap (x2 (ix2 p (0 : Fin 2))))) k := by
  unfold val_main_v97
  rw [gatherPair_at, v96_col, v88_feats]

theorem v106_at (p : Fin 200000) (k : Fin 128) : val_main_v106 (F := Ideal) x0 x1 x2 x3 x4 x5 x6 (ix2 p k) = feats layerInside x0 x1 x3 x4 x5 x6 (rowOf (wrap (x2 (ix2 p (1 : Fin 2))))) k := by
  unfold val_main_v106
  rw [gatherPair_at, v105_col, v88_feats]

/-! ## The head -/

theorem v108_at (p : Fin 200000) (k : Fin 128) : val_main_v108 (F := Ideal) x0 x1 x2 x3 x4 x5 x6 x7 (ix2 p k)
    = (∑ j : Fin 128, feats layerInside x0 x1 x3 x4 x5 x6 (rowOf (wrap (x2 (ix2 p (0 : Fin 2))))) j * x7 (ix2 (Fin.castAdd 128 j : Fin 256) k))
      + ∑ j : Fin 128, feats layerInside x0 x1 x3 x4 x5 x6 (rowOf (wrap (x2 (ix2 p (1 : Fin 2))))) j * x7 (ix2 (Fin.natAdd 128 j : Fin 256) k) := by
  rw [val_main_v108_apply]
  have hl : ∀ j : Fin 256, lidx_main_v108 (ix2 p k) j = ix2 p j := fun j => by funext a; match a with | ⟨0, _⟩ => rfl | ⟨1, _⟩ => rfl
  have hr : ∀ j : Fin 256, ridx_main_v108 (ix2 p k) j = ix2 j k := fun j => by funext a; match a with | ⟨0, _⟩ => rfl | ⟨1, _⟩ => rfl
  simp only [hl, hr]
  unfold val_main_v107
  refine (Idealize.ShloMosaic.ConcatDot.concat_dot _ _ _ x7 p k).trans ?_
  simp only [v97_at, v106_at]

theorem v112_at (p : Fin 200000) (k : Fin 128) : val_main_v112 (F := Ideal) x0 x1 x2 x3 x4 x5 x6 x7 x8 (ix2 p k)
    = max (((∑ j : Fin 128, feats layerInside x0 x1 x3 x4 x5 x6 (rowOf (wrap (x2 (ix2 p (0 : Fin 2))))) j * x7 (ix2 (Fin.castAdd 128 j : Fin 256) k))
      + ∑ j : Fin 128, feats layerInside x0 x1 x3 x4 x5 x6 (rowOf (wrap (x2 (ix2 p (1 : Fin 2))))) j * x7 (ix2 (Fin.natAdd 128 j : Fin 256) k)) + x8 (ix1 k)) zeroF := by
  rw [val_main_v112_apply, val_main_v111_apply, v108_at, val_main_v110_apply, val_main_v109_apply,
    val_main_call4_v0_apply, val_main_call4_cst_apply]
  have hb : idx_main_v109 (idx_main_v110 (ix2 p k)) = ix1 k := by funext a; match a with | ⟨0, _⟩ => rfl
  rw [hb]
  rfl

/-- The reference's result for pair p is the score of Cert.Gcn.resultWith with the factor kept inside the sums. -/
theorem v116_at (p : Fin 200000) : val_main_v116 (F := Ideal) x0 x1 x2 x3 x4 x5 x6 x7 x8 x9 x10 (ix2 p (0 : Fin 1))
    = resultWith layerInside x0 x1 x2 x3 x4 x5 x6 x7 x8 x9 x10 p := by
  rw [val_main_v116_apply, val_main_v113_apply, val_main_v115_apply, val_main_v114_apply]
  have hl : ∀ j : Fin 128, lidx_main_v113 (ix2 p (0 : Fin 1)) j = ix2 p j := fun j => by funext a; match a with | ⟨0, _⟩ => rfl | ⟨1, _⟩ => rfl
  have hr : ∀ j : Fin 128, ridx_main_v113 (ix2 p (0 : Fin 1)) j = ix2 j (0 : Fin 1) := fun j => by funext a; match a with | ⟨0, _⟩ => rfl | ⟨1, _⟩ => rfl
  have hb : idx_main_v114 (idx_main_v115 (ix2 p (0 : Fin 1))) = ix1 (0 : Fin 1) := by funext a; match a with | ⟨0, _⟩ => rfl
  simp only [hl, hr, hb, v112_at]
  rfl

end Cert.RefSide

end
-- ==== Proof.RefValue.lean ====
/-
  The reference run's result, read at pair p, is the score Cert.Gcn.resultWith Cert.Gcn.layerInside of the argument
  arrays: the run's result term is its last stage, and the stages were read layer by layer.
-/
import proofs.«147584_j43087111914333_2_alg».proof.Proof.RefReadP
import proofs.«147584_j43087111914333_2_alg».proof.Proof.RefValueHead

set_option maxRecDepth 16384

noncomputable section

open scoped BigOperators

namespace Cert.RefSide

open Cert.ReferenceIdeal Cert.ReferenceIdeal.Gen Idealize.ShloMosaic Idealize.ShloMosaic.ValueIdx
  Idealize.ShloMosaic.EdgeIndex Cert.Gcn

open Cert.ReferenceIdeal.ReadP Idealize.ShloMosaic.TcCoe Idealize.SL.Sem

theorem result_eq (m : (ℓ : Loc Cert.ReferenceIdeal.nD Cert.ReferenceIdeal.τ Cert.ReferenceIdeal.sig) → Buf (Elt Ideal) ℓ)
    (c : Dev Cert.ReferenceIdeal.nD) (p : Fin 200000) :
    Cert.ReferenceIdeal.ValueP.res_main_v116 (F := Ideal) m c (ix2 p (0 : Fin 1))
      = resultWith layerInside (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10)) p :=
  (congrFun (val_main_v116_eq (F := Ideal) m c) (ix2 p (0 : Fin 1))).trans
    (v116_at (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10)) p)

end Cert.RefSide

end
-- ==== Proof.lean ====
/-
  The certificate: a two-layer graph convolution followed by a pair-scoring head, computed by five pipelined
  regions among host operations, gives — over the extended reals, entry by entry, from the same argument arrays —
  the same 200000 scores as the plain reference program, and both programs (and the kernel at the word level)
  terminate without a fault and leave their argument arrays unchanged.

  The kernel's result array, read at pair p, is the specification's score with each layer's destination factor
  applied once after the neighbour sum; the reference's result, read at pair p, is the same score with that factor
  inside every summand. The factor is a nonnegative real number, so it distributes over the sum of extended reals
  and the two scores are one function of the arguments. The idealized kernel is the printed kernel's own text read
  over the extended reals: nothing was rewritten, so the fourth conjunct has nothing to show.
-/
import proofs.«147584_j43087111914333_2_alg».proof.Defs
import proofs.«147584_j43087111914333_2_alg».proof.Proof.Gen.Kernel
import proofs.«147584_j43087111914333_2_alg».proof.Proof.Gen.Kernel.Skeleton
import proofs.«147584_j43087111914333_2_alg».proof.Proof.Gen.Kernel.Launch
import proofs.«147584_j43087111914333_2_alg».proof.Proof.Gen.Kernel.Points
import proofs.«147584_j43087111914333_2_alg».proof.Proof.Gen.Kernel.Frame
import proofs.«147584_j43087111914333_2_alg».proof.Proof.Gen.KernelIdeal
import proofs.«147584_j43087111914333_2_alg».proof.Proof.Gen.KernelIdeal.Skeleton
import proofs.«147584_j43087111914333_2_alg».proof.Proof.Gen.KernelIdeal.Launch
import proofs.«147584_j43087111914333_2_alg».proof.Proof.Gen.KernelIdeal.Points
import proofs.«147584_j43087111914333_2_alg».proof.Proof.Gen.KernelIdeal.Frame
import proofs.«147584_j43087111914333_2_alg».proof.Proof.Gen.ReferenceIdeal
import proofs.«147584_j43087111914333_2_alg».proof.Proof.Gen.Pre_finite_inputs
import proofs.«147584_j43087111914333_2_alg».proof.Proof.Spec
import proofs.«147584_j43087111914333_2_alg».proof.Proof.RefRunP
import proofs.«147584_j43087111914333_2_alg».proof.Proof.KernelRun
import proofs.«147584_j43087111914333_2_alg».proof.Proof.KernelValue
import proofs.«147584_j43087111914333_2_alg».proof.Proof.RefValue
import Idealize.ShloMosaic.Adequacy
import Idealize.ShloMosaic.Init

set_option maxRecDepth 16384

noncomputable section

namespace Cert.Proof.Claims

open Idealize.ShloMosaic Idealize.SL.Sem Idealize.ShloMosaic.ValueIdx

/-- The word-level kernel terminates, faults nowhere and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the same scores: pair by pair each result is the specification's score of the
    arguments, in its two arrangements of a layer, and the two arrangements agree. -/
theorem algebraic :
    Cert.algebraic_KernelIdeal_ReferenceIdeal := by
  intro m ρ m' ρ' _ hagree
  refine ⟨fun c => Cert.KernelIdeal.Gen.W11 m ρ c (Proc.devRef .tc Cert.KernelIdeal.main_v63),
    Cert.KernelSide.run (F := Ideal) m ρ, ?_⟩
  refine (θ_run Cert.ReferenceIdeal.defs _ _).mono (fun _ h c => ⟨(h c).1.trans ?_, (h c).2⟩)
    (Cert.ReferenceIdeal.ValueP.run (F := Ideal) m' ρ')
  funext i
  obtain ⟨p, u, rfl⟩ : ∃ (p : Fin 200000) (u : Fin 1), i = ix2 p u := ⟨i 0, i 1, eq_ix2 i⟩
  obtain rfl : u = 0 := Subsingleton.elim u 0
  obtain ⟨a0, a1, a2, a3, a4, a5, a6, a7, a8, a9, a10⟩ := hagree c
  refine (Cert.RefSide.result_eq m' c p).trans ?_
  refine Eq.trans ?_ (Cert.KernelSide.result_eq m ρ c p).symm
  rw [a0, a1, a2, a3, a4, a5, a6, a7, a8, a9, a10, Cert.Gcn.resultWith_after_eq_inside]

end Cert.Proof.Claims

namespace Cert.Proof

/-- The five conjuncts, under the programs' stated side conditions as proved beside them. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
